-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S64x128 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S128x64 .f32) (main_arg3 : FVec F S128 .f32) (main_arg4 : FVec F S128x64 .f32) (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 57
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S100000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .f32⟩
  | .hbm, ⟨53, _⟩ => ⟨S100000x128, .f32⟩
  | .hbm, ⟨54, _⟩ => ⟨S1000000x1, .i32⟩
  | .hbm, ⟨55, _⟩ => ⟨S100000x128, .f32⟩
  | .hbm, ⟨56, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S128, .f32⟩
  | .local _ .vmem, ⟨8, _⟩ => ⟨S128x64, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S64x128, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  transposes_S128x64_p1_0_S64x128 : S128x64.Transposes [1, 0] S64x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  transposes_S64x128_p1_0_S128x64 : S64x128.Transposes [1, 0] S128x64
  shapeCasts_S64_S1x64 : S64.ShapeCasts S1x64
  broadcasts_S1x64_S5000x64 : S1x64.Broadcasts S5000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .f32 = 32 ∨ (Rect.block (s := S64x128) S64x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S64x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x128, .f32⟩
  | .hbm, ⟨64, _⟩ => ⟨S_, .f32⟩
  | .hbm, ⟨65, _⟩ => ⟨S100000x128, .f32⟩
  | .hbm, ⟨66, _⟩ => ⟨S1000000x1, .i32⟩
  | .hbm, ⟨67, _⟩ => ⟨S100000x128, .f32⟩
  | .hbm, ⟨68, _⟩ => ⟨S_, .f32⟩
  | .hbm, ⟨69, _⟩ => ⟨S1000000, .f32⟩
  | .hbm, ⟨70, _⟩ => ⟨S_, .f32⟩
  | .hbm, ⟨71, _⟩ => ⟨S100000, .f32⟩
  | .hbm, ⟨72, _⟩ => ⟨S1000000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S128x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  @main is four segments: the host operations before the first launch, the first launch, the host operations between
  the launches, the second launch.  Every weakly fair execution runs them in order and terminates without a fault; at
  the end every buffer a segment can see holds what the fold of the four segments over the launch memory gives it.  Read
  at the result buffer, that is the array the second launch's write-backs leave; read at an argument, the launch
  contents.
-/
import proofs.«124478_j56075093017243_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the second
    launch's write-backs leave (its proof data taken at the contents the launch is entered with) and every argument
    as launched. -/
theorem run_out : θ_run defs (onTc (τ := τ) (main (F := F))) ⟨m, fun _ => 0, ρ⟩ (fun r => ∀ c : Dev nD,
      r.2.mem ((c.tc : Thread nD τ).loc main_v34) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v34 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Run

end
-- ==== Proof.Spec.lean ====
/-
  Two mean-aggregating graph layers and an output projection, entry by entry over the extended reals.

  A layer takes node features `x` (one row per node), the neighbours' aggregate `nm` of the same shape, two weight
  matrices stored with one row per OUTPUT feature, and two bias vectors; entry `(p, q)` of its result is
      max ( x(p,·)·Ws(q,·) + bs(q) + nm(p,·)·Wn(q,·) + bn(q) , 0 ),
  the two dot products running over the input features, the additions taken in this order.  The projection is one dot
  product per entry plus a bias.  `scaled` is the aggregate the kernel feeds its layers: the neighbours' SUM times a
  per-node weight held in a one-column array (the reciprocal of the node's in-degree, floored at one).

  Everything is generic in the number of rows, so that the same function describes a whole array and one block of it.
-/
import Idealize.ShloMosaic.PureOps.Ideal
import Idealize.ShloMosaic.Lib.ValueIdx

noncomputable section

namespace Cert.Sage

open Idealize.ShloMosaic Idealize.ShloMosaic.ValueIdx

/-- The neighbours' sum weighted row by row: entry `(p, e)` is `ns (p, e) * w (p, 0)`. -/
def scaled {N A : ℕ} (ns : (⟨2, ![N, A]⟩ : Shape).Idx → EReal) (w : (⟨2, ![N, 1]⟩ : Shape).Idx → EReal) :
    (⟨2, ![N, A]⟩ : Shape).Idx → EReal :=
  fun j => ns j * w (ix2 (j 0) (0 : Fin 1))

/-- One layer: `relu (x · Wsᵀ + bs + nm · Wnᵀ + bn)`, entry by entry. -/
def layer {N A B : ℕ} (x nm : (⟨2, ![N, A]⟩ : Shape).Idx → EReal)
    (Ws : (⟨2, ![B, A]⟩ : Shape).Idx → EReal) (bs : (⟨1, ![B]⟩ : Shape).Idx → EReal)
    (Wn : (⟨2, ![B, A]⟩ : Shape).Idx → EReal) (bn : (⟨1, ![B]⟩ : Shape).Idx → EReal) :
    (⟨2, ![N, B]⟩ : Shape).Idx → EReal :=
  fun j => max ((((∑ e : Fin A, x (ix2 (j 0) e) * Ws (ix2 (j 1) e)) + bs (ix1 (j 1)))
      + ∑ e : Fin A, nm (ix2 (j 0) e) * Wn (ix2 (j 1) e)) + bn (ix1 (j 1))) (Ideal.ofBits .f32 0x00000000#32)

/-- The output projection: `h · Woᵀ + bo`, entry by entry. -/
def proj {N A B : ℕ} (h : (⟨2, ![N, A]⟩ : Shape).Idx → EReal)
    (Wo : (⟨2, ![B, A]⟩ : Shape).Idx → EReal) (bo : (⟨1, ![B]⟩ : Shape).Idx → EReal) :
    (⟨2, ![N, B]⟩ : Shape).Idx → EReal :=
  fun j => (∑ e : Fin A, h (ix2 (j 0) e) * Wo (ix2 (j 1) e)) + bo (ix1 (j 1))

theorem scaled_apply {N A : ℕ} (ns : (⟨2, ![N, A]⟩ : Shape).Idx → EReal) (w : (⟨2, ![N, 1]⟩ : Shape).Idx → EReal)
    (p : Fin N) (e : Fin A) : scaled ns w (ix2 p e) = ns (ix2 p e) * w (ix2 p (0 : Fin 1)) := rfl

theorem layer_apply {N A B : ℕ} (x nm : (⟨2, ![N, A]⟩ : Shape).Idx → EReal)
    (Ws : (⟨2, ![B, A]⟩ : Shape).Idx → EReal) (bs : (⟨1, ![B]⟩ : Shape).Idx → EReal)
    (Wn : (⟨2, ![B, A]⟩ : Shape).Idx → EReal) (bn : (⟨1, ![B]⟩ : Shape).Idx → EReal) (p : Fin N) (q : Fin B) :
    layer x nm Ws bs Wn bn (ix2 p q)
      = max ((((∑ e : Fin A, x (ix2 p e) * Ws (ix2 q e)) + bs (ix1 q))
          + ∑ e : Fin A, nm (ix2 p e) * Wn (ix2 q e)) + bn (ix1 q)) (Ideal.ofBits .f32 0x00000000#32) := rfl

theorem proj_apply {N A B : ℕ} (h : (⟨2, ![N, A]⟩ : Shape).Idx → EReal)
    (Wo : (⟨2, ![B, A]⟩ : Shape).Idx → EReal) (bo : (⟨1, ![B]⟩ : Shape).Idx → EReal) (p : Fin N) (q : Fin B) :
    proj h Wo bo (ix2 p q) = (∑ e : Fin A, h (ix2 p e) * Wo (ix2 q e)) + bo (ix1 q) := rfl

end Cert.Sage

end
-- ==== Proof.HostSide.lean ====
/-
  The graph side of the two layers, as whole-array functions of the node features and the edge list, and the dense
  side as the reference spells it.

  An edge list `[2, E]` holds a source row and a destination row.  Sources are read with wrap-around for negative
  numbers (`s < 0` reads `s + N`) and gathered; the gathered rows are added onto the destination nodes' rows
  (`nsum`).  A node's in-degree is the number of edges ending there, floored at one (`deg`).  The reference divides
  the neighbours' sum by the degree (`mean`); the kernel multiplies it by the reciprocal kept in a one-column array
  (`invCol`).  `refLayer1`, `refLayer2`, `refProj` are the dense layers as host operations: transposes, matrix
  products, bias broadcasts, a maximum with zero.
-/
import proofs.«124478_j56075093017243_2_alg».proof.Proof.Gen.ReferenceIdeal
import proofs.«124478_j56075093017243_2_alg».proof.Proof.Spec

noncomputable section

namespace Cert.Sage.Host

open Idealize.ShloMosaic Cert.ReferenceIdeal Cert.ReferenceIdeal.Gen

/-- The edges' source nodes. -/
def src (ei : IVec S2x1000000 32) : IVec S1000000 32 :=
  shapeCast _ (extractStridedSlice S1x1000000 ![0, 0] ei slices_S2x1000000_S1x1000000_0_0) shapeCasts_S1x1000000_S1000000
/-- The edges' destination nodes. -/
def dst (ei : IVec S2x1000000 32) : IVec S1000000 32 :=
  shapeCast _ (extractStridedSlice S1x1000000 ![1, 0] ei slices_S2x1000000_S1x1000000_1_0) shapeCasts_S1x1000000_S1000000
/-- The sources as a column of gather indices, a negative number wrapped around once. -/
def srcCol (ei : IVec S2x1000000 32) : IVec S1000000x1 32 :=
  broadcastInDim S1000000x1 ![0] bcast_S1000000_S1000000x1_0
    (select (cmpi .slt (src ei) (broadcastInDim S1000000 ![] bcast_S_S1000000 (constantI S_ 32 0#32)))
      (addi (src ei) (broadcastInDim S1000000 ![] bcast_S_S1000000 (constantI S_ 32 100000#32))) (src ei))
/-- The destinations as a column of scatter indices. -/
def dstCol (ei : IVec S2x1000000 32) : IVec S1000000x1 32 :=
  broadcastInDim S1000000x1 ![0] bcast_S1000000_S1000000x1_0 (dst ei)

/-- The neighbours' sum of 64-wide rows. -/
def nsum64 (x : FVec Ideal S100000x64 .f32) (ei : IVec S2x1000000 32) : FVec Ideal S100000x64 .f32 :=
  Host.scatterAdd scatter_S100000x64_S1000000x1_S1000000x64_1_0_0_1
    (broadcastInDim S100000x64 ![] bcast_S_S100000x64 (constant S_ .f32 0x00000000#32)) (dstCol ei)
    (Host.gather gather_S100000x64_S1000000x1_S1000000x64_1_0_n_n_0_1_164 x (srcCol ei))
/-- The neighbours' sum of 128-wide rows. -/
def nsum128 (h : FVec Ideal S100000x128 .f32) (ei : IVec S2x1000000 32) : FVec Ideal S100000x128 .f32 :=
  Host.scatterAdd scatter_S100000x128_S1000000x1_S1000000x128_1_0_0_1
    (broadcastInDim S100000x128 ![] bcast_S_S100000x128 (constant S_ .f32 0x00000000#32)) (dstCol ei)
    (Host.gather gather_S100000x128_S1000000x1_S1000000x128_1_0_n_n_0_1_1128 h (srcCol ei))

/-- The in-degree, floored at one. -/
def deg (ei : IVec S2x1000000 32) : FVec Ideal S100000 .f32 :=
  maximumf (Host.scatterAdd scatter_S100000_S1000000x1_S1000000_n_0_0_1
      (broadcastInDim S100000 ![] bcast_S_S100000 (constant S_ .f32 0x00000000#32)) (dstCol ei)
      (broadcastInDim S1000000 ![] bcast_S_S1000000 (constant S_ .f32 0x3F800000#32)))
    (broadcastInDim S100000 ![] bcast_S_S100000 (constant S_ .f32 0x3F800000#32))
/-- The degree as a column. -/
def degCol (ei : IVec S2x1000000 32) : FVec Ideal S100000x1 .f32 :=
  broadcastInDim S100000x1 ![0] bcast_S100000_S100000x1_0 (deg ei)
/-- The reciprocal of the degree as a column: what the kernel multiplies by. -/
def invCol (ei : IVec S2x1000000 32) : FVec Ideal S100000x1 .f32 :=
  broadcastInDim S100000x1 ![0] bcast_S100000_S100000x1_0
    (Host.divf (broadcastInDim S100000 ![] bcast_S_S100000 (constant S_ .f32 0x3F800000#32)) (deg ei))

/-- The neighbours' mean of 64-wide rows: the sum divided by the degree. -/
def mean64 (ns : FVec Ideal S100000x64 .f32) (ei : IVec S2x1000000 32) : FVec Ideal S100000x64 .f32 :=
  Host.divf ns (broadcastInDim S100000x64 ![0, 1] bcast_S100000x1_S100000x64_0_1 (degCol ei))
/-- The neighbours' mean of 128-wide rows. -/
def mean128 (ns : FVec Ideal S100000x128 .f32) (ei : IVec S2x1000000 32) : FVec Ideal S100000x128 .f32 :=
  Host.divf ns (broadcastInDim S100000x128 ![0, 1] bcast_S100000x1_S100000x128_0_1 (degCol ei))

/-- The first layer as the reference's host operations. -/
def refLayer1 (x nm : FVec Ideal S100000x64 .f32) (Ws : FVec Ideal S128x64 .f32) (bs : FVec Ideal S128 .f32)
    (Wn : FVec Ideal S128x64 .f32) (bn : FVec Ideal S128 .f32) : FVec Ideal S100000x128 .f32 :=
  maximumf (addf (addf (addf
      (Host.dotGeneral dot_S100000x64_S64x128_S100000x128_1_0_0_1_n_n none x (transpose S64x128 [1, 0] Ws transposes_S128x64_S64x128_1_0))
      (broadcastInDim S100000x128 ![0, 1] bcast_S1x128_S100000x128_0_1 (broadcastInDim S1x128 ![1] bcast_S128_S1x128_1 bs)))
      (Host.dotGeneral dot_S100000x64_S64x128_S100000x128_1_0_0_1_n_n none nm (transpose S64x128 [1, 0] Wn transposes_S128x64_S64x128_1_0)))
      (broadcastInDim S100000x128 ![0, 1] bcast_S1x128_S100000x128_0_1 (broadcastInDim S1x128 ![1] bcast_S128_S1x128_1 bn)))
    (broadcastInDim S100000x128 ![] bcast_S_S100000x128 (constant S_ .f32 0x00000000#32))

/-- The second layer as the reference's host operations. -/
def refLayer2 (h nm : FVec Ideal S100000x128 .f32) (Ws : FVec Ideal S128x128 .f32) (bs : FVec Ideal S128 .f32)
    (Wn : FVec Ideal S128x128 .f32) (bn : FVec Ideal S128 .f32) : FVec Ideal S100000x128 .f32 :=
  maximumf (addf (addf (addf
      (Host.dotGeneral dot_S100000x128_S128x128_S100000x128_1_0_0_1_n_n none h (transpose S128x128 [1, 0] Ws transposes_S128x128_S128x128_1_0))
      (broadcastInDim S100000x128 ![0, 1] bcast_S1x128_S100000x128_0_1 (broadcastInDim S1x128 ![1] bcast_S128_S1x128_1 bs)))
      (Host.dotGeneral dot_S100000x128_S128x128_S100000x128_1_0_0_1_n_n none nm (transpose S128x128 [1, 0] Wn transposes_S128x128_S128x128_1_0)))
      (broadcastInDim S100000x128 ![0, 1] bcast_S1x128_S100000x128_0_1 (broadcastInDim S1x128 ![1] bcast_S128_S1x128_1 bn)))
    (broadcastInDim S100000x128 ![] bcast_S_S100000x128 (constant S_ .f32 0x00000000#32))

/-- The output projection as the reference's host operations. -/
def refProj (h : FVec Ideal S100000x128 .f32) (Wo : FVec Ideal S64x128 .f32) (bo : FVec Ideal S64 .f32) :
    FVec Ideal S100000x64 .f32 :=
  addf (Host.dotGeneral dot_S100000x128_S128x64_S100000x64_1_0_0_1_n_n none h (transpose S128x64 [1, 0] Wo transposes_S64x128_S128x64_1_0))
    (broadcastInDim S100000x64 ![0, 1] bcast_S1x64_S100000x64_0_1 (broadcastInDim S1x64 ![1] bcast_S64_S1x64_1 bo))

/-- The whole network as a function of the twelve arguments, the reference's way. -/
def net (x : FVec Ideal S100000x64 .f32) (ei : IVec S2x1000000 32)
    (Ws1 : FVec Ideal S128x64 .f32) (bs1 : FVec Ideal S128 .f32) (Wn1 : FVec Ideal S128x64 .f32) (bn1 : FVec Ideal S128 .f32)
    (Ws2 : FVec Ideal S128x128 .f32) (bs2 : FVec Ideal S128 .f32) (Wn2 : FVec Ideal S128x128 .f32) (bn2 : FVec Ideal S128 .f32)
    (Wo : FVec Ideal S64x128 .f32) (bo : FVec Ideal S64 .f32) : FVec Ideal S100000x64 .f32 :=
  refProj (refLayer2 (refLayer1 x (mean64 (nsum64 x ei) ei) Ws1 bs1 Wn1 bn1)
      (mean128 (nsum128 (refLayer1 x (mean64 (nsum64 x ei) ei) Ws1 bs1 Wn1 bn1) ei) ei) Ws2 bs2 Wn2 bn2) Wo bo

end Cert.Sage.Host

end
-- ==== Proof.KernelHost.lean ====
/-
  What the two kernel launches are entered with, as functions of the launch memory.

  Before the first launch the host computes the neighbours' sum of the node features and the column of reciprocal
  degrees from the edge list; the parameters and the features are the arguments themselves.  Between the launches it
  computes the neighbours' sum of the first launch's output; the reciprocal degrees are still there, and the second
  layer's parameters are again arguments.
-/
import proofs.«124478_j56075093017243_2_alg».proof.Proof.Gen.KernelIdeal.Frame
import proofs.«124478_j56075093017243_2_alg».proof.Proof.HostSide
import Idealize.ShloMosaic.Lib.StableHlo.Run

set_option maxRecDepth 16384

noncomputable section

namespace Cert.Sage.Kern

open Idealize.ShloMosaic Idealize.ShloMosaic.TcCoe Idealize.ShloMosaic.StableHlo Idealize.SL.Sem
open Cert.KernelIdeal Cert.KernelIdeal.Gen Cert.Sage

variable (m : (ℓ : Loc nD τ sig) → Buf (Elt Ideal) ℓ) (ρ : Dev nD → PrngReg) (c : Dev nD)

/-! ## At the first launch -/

set_option maxHeartbeats 4000000 in
theorem V1_v22 : V1 m ρ c main_v22 = Host.nsum64 (m ((c : Thread nD τ).loc main_arg0)) (m ((c : Thread nD τ).loc main_arg1)) := by
  show StableHlo.after hostOps0 (W0 m ρ c) (Proc.devRef .tc main_v22) = _
  dsimp only [hostOps0]
  after_results_simp
  rfl

set_option maxHeartbeats 4000000 in
theorem V1_v12 : V1 m ρ c main_v12 = Host.invCol (m ((c : Thread nD τ).loc main_arg1)) := by
  show StableHlo.after hostOps0 (W0 m ρ c) (Proc.devRef .tc main_v12) = _
  dsimp only [hostOps0]
  after_results_simp
  rfl

set_option maxHeartbeats 4000000 in
theorem V1_arg0 : V1 m ρ c main_arg0 = m ((c : Thread nD τ).loc main_arg0) := by
  show StableHlo.after hostOps0 (W0 m ρ c) (Proc.devRef .tc main_arg0) = _
  dsimp only [hostOps0]
  after_results_simp <;> rfl

set_option maxHeartbeats 4000000 in
theorem V1_arg2 : V1 m ρ c main_arg2 = m ((c : Thread nD τ).loc main_arg2) := by
  show StableHlo.after hostOps0 (W0 m ρ c) (Proc.devRef .tc main_arg2) = _
  dsimp only [hostOps0]
  after_results_simp <;> rfl

set_option maxHeartbeats 4000000 in
theorem V1_arg3 : V1 m ρ c main_arg3 = m ((c : Thread nD τ).loc main_arg3) := by
  show StableHlo.after hostOps0 (W0 m ρ c) (Proc.devRef .tc main_arg3) = _
  dsimp only [hostOps0]
  after_results_simp <;> rfl

set_option maxHeartbeats 4000000 in
theorem V1_arg4 : V1 m ρ c main_arg4 = m ((c : Thread nD τ).loc main_arg4) := by
  show StableHlo.after hostOps0 (W0 m ρ c) (Proc.devRef .tc main_arg4) = _
  dsimp only [hostOps0]
  after_results_simp <;> rfl

set_option maxHeartbeats 4000000 in
theorem V1_arg5 : V1 m ρ c main_arg5 = m ((c : Thread nD τ).loc main_arg5) := by
  show StableHlo.after hostOps0 (W0 m ρ c) (Proc.devRef .tc main_arg5) = _
  dsimp only [hostOps0]
  after_results_simp <;> rfl

/-! ## Between the launches -/

set_option maxHeartbeats 4000000 in
/-- The edges' sources and destinations are still what the first stretch computed. -/
theorem W2_v1 : W2 m ρ c (Proc.devRef .tc main_v1) = Host.src (m ((c : Thread nD τ).loc main_arg1)) := by
  refine (W2_of_ne m ρ c main_v1 (by decide)).trans ?_
  show StableHlo.after hostOps0 (W0 m ρ c) (Proc.devRef .tc main_v1) = _
  dsimp only [hostOps0]
  after_results_simp
  rfl

set_option maxHeartbeats 4000000 in
theorem W2_v3 : W2 m ρ c (Proc.devRef .tc main_v3) = Host.dst (m ((c : Thread nD τ).loc main_arg1)) := by
  refine (W2_of_ne m ρ c main_v3 (by decide)).trans ?_
  show StableHlo.after hostOps0 (W0 m ρ c) (Proc.devRef .tc main_v3) = _
  dsimp only [hostOps0]
  after_results_simp
  rfl

/-! ## At the second launch -/

/-- The features the second launch reads are what the first launch's write-backs left. -/
theorem V3_v23 : V3 m ρ c main_v23 = (dat0 (V1 m ρ) c).arrAt 7 cfg0.N := by
  show StableHlo.after hostOps1 (W2 m ρ c) (Proc.devRef .tc main_v23) = _
  dsimp only [hostOps1]
  after_results_simp
  exact W2_arr m ρ c 7

/-- The reciprocal degrees are still there. -/
theorem V3_v12 : V3 m ρ c main_v12 = Host.invCol (m ((c : Thread nD τ).loc main_arg1)) := by
  show StableHlo.after hostOps1 (W2 m ρ c) (Proc.devRef .tc main_v12) = _
  dsimp only [hostOps1]
  after_results_simp
  exact (W2_arr m ρ c 2).trans ((((dat0 (V1 m ρ) c).arrAt_in 2 rfl _).trans (A_eq0 (V1 m ρ) c 2)).trans (V1_v12 m ρ c))

/-- The second neighbours' sum is that of the first launch's output. -/
theorem V3_v33 : V3 m ρ c main_v33 = Host.nsum128 (V3 m ρ c main_v23) (m ((c : Thread nD τ).loc main_arg1)) := by
  have h23 : V3 m ρ c main_v23 = W2 m ρ c (Proc.devRef .tc main_v23) := by
    show StableHlo.after hostOps1 (W2 m ρ c) (Proc.devRef .tc main_v23) = _
    dsimp only [hostOps1]
    after_results_simp
  rw [h23]
  show StableHlo.after hostOps1 (W2 m ρ c) (Proc.devRef .tc main_v33) = _
  dsimp only [hostOps1]
  after_results_simp
  rw [W2_v1, W2_v3]
  rfl

theorem V3_arg6 : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)

theorem V3_arg7 : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

theorem V3_arg8 : V3 m ρ c main_arg8 = m ((c : Thread nD τ).loc main_arg8) :=
  ((W4_arr m ρ c 5).trans (((dat1 (V3 m ρ) c).arrAt_in 5 rfl _).trans (A_eq1 (V3 m ρ) c 5))).symm.trans (W4_main_arg8 m ρ c)

theorem V3_arg9 : V3 m ρ c main_arg9 = m ((c : Thread nD τ).loc main_arg9) :=
  ((W4_arr m ρ c 6).trans (((dat1 (V3 m ρ) c).arrAt_in 6 rfl _).trans (A_eq1 (V3 m ρ) c 6))).symm.trans (W4_main_arg9 m ρ c)

theorem V3_arg10 : V3 m ρ c main_arg10 = m ((c : Thread nD τ).loc main_arg10) :=
  ((W4_arr m ρ c 7).trans (((dat1 (V3 m ρ) c).arrAt_in 7 rfl _).trans (A_eq1 (V3 m ρ) c 7))).symm.trans (W4_main_arg10 m ρ c)

theorem V3_arg11 : V3 m ρ c main_arg11 = m ((c : Thread nD τ).loc main_arg11) :=
  ((W4_arr m ρ c 8).trans (((dat1 (V3 m ρ) c).arrAt_in 8 rfl _).trans (A_eq1 (V3 m ρ) c 8))).symm.trans (W4_main_arg11 m ρ c)

end Cert.Sage.Kern

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.PayloadLayer.lean ====
/-
  What the two kernel bodies compute, as whole-block functions at the exact extended reals.

  The first body takes a block of node features, the same block of the neighbours' sum, the block's column of weights
  and the layer's parameters, and stores the layer of `Spec.lean` applied to the features and the weighted sum.  The
  second body stores the projection of such a layer.  A change of float format is the identity here; a matrix product
  of a block against a transposed weight matrix is, entry by entry, a dot product of a block row with a weight row.
-/
import proofs.«124478_j56075093017243_2_alg».proof.Proof.Gen.KernelIdeal.Skeleton
import proofs.«124478_j56075093017243_2_alg».proof.Proof.Spec
import proofs.«124478_j56075093017243_2_alg».proof.Proof.LibMatmulNN
import proofs.«124478_j56075093017243_2_alg».proof.Proof.LibBiasRow
import proofs.«124478_j56075093017243_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Pay

open Idealize.ShloMosaic Idealize.ShloMosaic.ValueIdx Cert.KernelIdeal Cert.KernelIdeal.Gen Cert.Sage

/-- A matrix with its two axes exchanged reads, at `(e, q)`, the matrix at `(q, e)`. -/
theorem transpose_swap_apply {α : Type} {a b : ℕ} (W : (⟨2, ![a, b]⟩ : Shape).Idx → α)
    (h : (⟨2, ![a, b]⟩ : Shape).Transposes [1, 0] ⟨2, ![b, a]⟩) (e : Fin b) (q : Fin a) :
    transpose ⟨2, ![b, a]⟩ [1, 0] W h (ix2 e q) = W (ix2 q e) := by
  refine transpose_apply [1, 0] W h (ix2 e q) (ix2 q e) fun bx => ?_
  match bx with
  | ⟨0, _⟩ => rfl
  | ⟨1, _⟩ => rfl

/-- A block times a transposed weight matrix, into a zero accumulator: entry `(p, q)` is the dot product of row `p` of
    the block with row `q` of the weights. -/
theorem matmul_transposed_apply {M N K : ℕ} {φ₁ φ₂ : FTy}
    (wf : DotDims.WF (⟨2, ![M, K]⟩ : Shape) (⟨2, ![K, N]⟩ : Shape) (⟨2, ![M, N]⟩ : Shape) [1] [0] [0] [1] [] [])
    (ht : (⟨2, ![N, K]⟩ : Shape).Transposes [1, 0] ⟨2, ![K, N]⟩)
    (x : FVec Ideal (⟨2, ![M, K]⟩ : Shape) φ₁) (W : FVec Ideal (⟨2, ![N, K]⟩ : Shape) φ₂) (p : Fin M) (q : Fin N) :
    FloatOps.matmul (Cert.LibMatmulNN.dims wf) none x (transpose ⟨2, ![K, N]⟩ [1, 0] W ht)
        (constant (F := Ideal) (⟨2, ![M, N]⟩ : Shape) .f32 0x00000000#32) (ix2 p q)
      = ∑ e : Fin K, x (ix2 p e) * W (ix2 q e) := by
  rw [Cert.LibMatmulNN.matmul_zero_apply]
  refine Finset.sum_congr rfl fun e _ => ?_
  rw [transpose_swap_apply]

/-- The neighbours' sum times the weight column spread over the features: entry `(p, e)` is that of `scaled`. Casting an
    array to its own shape changes nothing. -/
theorem weighted_apply {N A : ℕ} (hc : (⟨2, ![N, A]⟩ : Shape).ShapeCasts ⟨2, ![N, A]⟩)
    (hc1 : (⟨2, ![N, 1]⟩ : Shape).ShapeCasts ⟨2, ![N, 1]⟩)
    (hb : (⟨2, ![N, 1]⟩ : Shape).Broadcasts ⟨2, ![N, A]⟩)
    (ns : FVec Ideal (⟨2, ![N, A]⟩ : Shape) .f32) (w : FVec Ideal (⟨2, ![N, 1]⟩ : Shape) .f32) (p : Fin N) (e : Fin A) :
    mulf (shapeCast ⟨2, ![N, A]⟩ ns hc) (broadcastTo ⟨2, ![N, A]⟩ (shapeCast ⟨2, ![N, 1]⟩ w hc1) hb) (ix2 p e)
      = scaled ns w (ix2 p e) := by
  rw [mulf_apply, shapeCast_self, shapeCast_self, Cert.Layout.broadcastTo_a1_ab_apply, scaled_apply]

/-- One layer as the kernel bodies compute it, read at `(p, q)`: the features (in whatever float format they arrive)
    against the transposed self weights, plus the self bias, plus the weighted neighbours' sum against the transposed
    neighbour weights, plus the neighbour bias, floored at zero. A change of float format is the identity over the
    extended reals. -/
theorem layer_body_apply {N A B : ℕ} {φ : FTy}
    (wf : DotDims.WF (⟨2, ![N, A]⟩ : Shape) (⟨2, ![A, B]⟩ : Shape) (⟨2, ![N, B]⟩ : Shape) [1] [0] [0] [1] [] [])
    (ht : (⟨2, ![B, A]⟩ : Shape).Transposes [1, 0] ⟨2, ![A, B]⟩)
    (hc : (⟨2, ![N, A]⟩ : Shape).ShapeCasts ⟨2, ![N, A]⟩)
    (hc1 : (⟨2, ![N, 1]⟩ : Shape).ShapeCasts ⟨2, ![N, 1]⟩)
    (hb : (⟨2, ![N, 1]⟩ : Shape).Broadcasts ⟨2, ![N, A]⟩)
    (hr : (⟨1, ![B]⟩ : Shape).ShapeCasts ⟨2, ![1, B]⟩)
    (hd : (⟨2, ![1, B]⟩ : Shape).Broadcasts ⟨2, ![N, B]⟩)
    (hlt : FTy.bits .bf16 < FTy.bits .f32)
    (x : FVec Ideal (⟨2, ![N, A]⟩ : Shape) φ)
    (ns : FVec Ideal (⟨2, ![N, A]⟩ : Shape) .f32) (w : FVec Ideal (⟨2, ![N, 1]⟩ : Shape) .f32)
    (Ws Wn : FVec Ideal (⟨2, ![B, A]⟩ : Shape) .f32) (bs bn : FVec Ideal (⟨1, ![B]⟩ : Shape) .f32)
    (p : Fin N) (q : Fin B) :
    maximumf
        (addf
          (addf
            (addf
              (FloatOps.matmul (Cert.LibMatmulNN.dims wf) none x
                (transpose ⟨2, ![A, B]⟩ [1, 0] (truncf .bf16 Ws hlt) ht)
                (constant (F := Ideal) (⟨2, ![N, B]⟩ : Shape) .f32 0x00000000#32))
              (broadcastTo ⟨2, ![N, B]⟩ (shapeCast ⟨2, ![1, B]⟩ bs hr) hd))
            (FloatOps.matmul (Cert.LibMatmulNN.dims wf) none
              (truncf .bf16 (mulf (shapeCast ⟨2, ![N, A]⟩ ns hc)
                (broadcastTo ⟨2, ![N, A]⟩ (shapeCast ⟨2, ![N, 1]⟩ w hc1) hb)) hlt)
              (transpose ⟨2, ![A, B]⟩ [1, 0] (truncf .bf16 Wn hlt) ht)
              (constant (F := Ideal) (⟨2, ![N, B]⟩ : Shape) .f32 0x00000000#32)))
          (broadcastTo ⟨2, ![N, B]⟩ (shapeCast ⟨2, ![1, B]⟩ bn hr) hd))
        (broadcast ⟨2, ![N, B]⟩ (Scalar.ofBits (F := Ideal) .f32 0x00000000#32)) (ix2 p q)
      = layer x (scaled ns w) Ws bs Wn bn (ix2 p q) := by
  rw [layer_apply, maximumf_apply, addf_apply, addf_apply, addf_apply, broadcast_apply,
    matmul_transposed_apply, matmul_transposed_apply, BiasRead.bias_rows_apply, BiasRead.bias_rows_apply]
  refine congrArg₂ max (congrArg₂ (· + ·) (congrArg₂ (· + ·) rfl ?_) rfl) rfl
  refine Finset.sum_congr rfl fun e _ => ?_
  exact congrArg (· * Wn (ix2 q e)) (weighted_apply hc hc1 hb ns w p e)

/-- The first body's stored block is the layer of its loaded blocks. -/
theorem pay0_eq (v0 v2 : Vec Ideal S5000x64 .f32) (v4 : Vec Ideal S5000x1 .f32)
    (v9 v11 : Vec Ideal S128x64 .f32) (v13 v14 : Vec Ideal S128 .f32) :
    k0_pay1 (F := Ideal) v0 v2 v4 v9 v11 v13 v14
      = layer (N := 5000) (A := 64) (B := 128) v0 (scaled (N := 5000) (A := 64) v2 v4) v9 v13 v11 v14 := by
  funext j
  obtain ⟨p, q, rfl⟩ : ∃ (p : Fin 5000) (q : Fin 128), j = ix2 p q := ⟨j 0, j 1, eq_ix2 j⟩
  exact layer_body_apply (N := 5000) (A := 64) (B := 128) dot_S5000x64_S64x128_S5000x128_1_0_0_1_n_n_wf
    transposes_S128x64_p1_0_S64x128 shapeCasts_S5000x64_S5000x64 shapeCasts_S5000x1_S5000x1
    broadcasts_S5000x1_S5000x64 shapeCasts_S128_S1x128 broadcasts_S1x128_S5000x128 bitsLt_bf16_f32
    (truncf .bf16 v0 bitsLt_bf16_f32) v2 v4 v9 v11 v13 v14 p q

/-- The second body's stored block is the projection of the layer of its loaded blocks. -/
theorem pay1_eq (v0 v3 : Vec Ideal S5000x128 .f32) (v5 : Vec Ideal S5000x1 .f32)
    (v10 v12 : Vec Ideal S128x128 .f32) (v14 v15 : Vec Ideal S128 .f32)
    (v30 : Vec Ideal S64x128 .f32) (v32 : Vec Ideal S64 .f32) :
    k1_pay1 (F := Ideal) v0 v3 v5 v10 v12 v14 v15 v30 v32
      = proj (N := 5000) (A := 128) (B := 64)
          (layer (N := 5000) (A := 128) (B := 128) v0 (scaled (N := 5000) (A := 128) v3 v5) v10 v14 v12 v15) v30 v32 := by
  funext j
  obtain ⟨p, q, rfl⟩ : ∃ (p : Fin 5000) (q : Fin 64), j = ix2 p q := ⟨j 0, j 1, eq_ix2 j⟩
  rw [proj_apply]
  unfold k1_pay1
  simp only []
  rw [addf_apply, BiasRead.bias_rows_apply]
  refine congrArg (· + v32 (ix1 q)) ?_
  -- the outer product: row `p` of the layer against row `q` of the output weights
  refine (matmul_transposed_apply (M := 5000) (N := 64) (K := 128) dot_S5000x128_S128x64_S5000x64_1_0_0_1_n_n_wf
    transposes_S64x128_p1_0_S128x64 _ _ p q).trans ?_
  refine Finset.sum_congr rfl fun e _ => ?_
  refine congrArg (· * v30 (ix2 q e)) ?_
  -- the inner layer, read at `(p, e)`; its features were cast to their own shape first
  refine (layer_body_apply (N := 5000) (A := 128) (B := 128) dot_S5000x128_S128x128_S5000x128_1_0_0_1_n_n_wf
    transposes_S128x128_p1_0_S128x128 shapeCasts_S5000x128_S5000x128 shapeCasts_S5000x1_S5000x1
    broadcasts_S5000x1_S5000x128 shapeCasts_S128_S1x128 broadcasts_S1x128_S5000x128 bitsLt_bf16_f32
    (truncf .bf16 (shapeCast S5000x128 v0 shapeCasts_S5000x128_S5000x128) bitsLt_bf16_f32)
    v3 v5 v10 v12 v14 v15 p e).trans ?_
  rw [shapeCast_self]
  rfl

end Cert.Sage.Pay

end
-- ==== Proof.Blocks0.lean ====
/-
  From blocks to the array, first launch: what the first kernel launch leaves in its output array.

  The launch walks twenty blocks of 5000 rows.  At a block the body stores the layer of the blocks it loaded; the row
  blocks of the features, of the neighbours' sum and of the weight column are the same rows of the input arrays, the
  parameters are loaded whole, and a layer's entry `(p, q)` depends on row `p` of the features and of the weighted
  sum only.  So the stored block is that block of the layer of the WHOLE arrays, and the twenty blocks tile the output.
-/
import proofs.«124478_j56075093017243_2_alg».proof.Proof.Gen.KernelIdeal.Frame
import proofs.«124478_j56075093017243_2_alg».proof.Proof.PayloadLayer
import Idealize.ShloMosaic.Lib.Pipeline.Value

set_option maxRecDepth 16384

noncomputable section

namespace Cert.Sage.Blocks

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

namespace FirstLaunch

/-! ## Index facts -/

theorem zero2 : (![0, 0] : Fin 2 → Nat) = fun _ => 0 := funext fun a => by fin_cases a <;> rfl
theorem zero1 : (![0] : Fin 1 → Nat) = fun _ => 0 := funext fun a => by fin_cases a; rfl

/-- The block each window is on at point `t`: the row-blocked windows (features, neighbours' sum, weight column, output)
    are on row block `t` and column block 0; the parameter windows stay on block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of block `t` is row `t * 5000 + p` of the array: twenty blocks of 5000 rows. -/
theorem row_lt (t : Fin cfg0.N) (p : Fin 5000) : t.val * 5000 + p.val < 100000 := by
  have ht : t.val < 20 := t.isLt
  have hp : p.val < 5000 := p.isLt
  omega

/-- The array row of row `p` of block `t`. -/
def row (t : Fin cfg0.N) (p : Fin 5000) : Fin 100000 := ⟨t.val * 5000 + p.val, row_lt t p⟩

/-! ## A layer's entry depends on one row -/

/-- If the blocks `x`, `ns`, `w` hold rows `r p` of the arrays `X`, `NS`, `W` and the parameters are the same, then entry
    `(p, q)` of the blocks' layer is entry `(r p, q)` of the arrays' layer: both are the same two dot products over the
    input features, of the same rows. -/
theorem layer_rows (X NS : S100000x64.Idx → EReal) (W : S100000x1.Idx → EReal)
    (x ns : S5000x64.Idx → EReal) (w : S5000x1.Idx → EReal)
    (Ws Wn Ws' Wn' : S128x64.Idx → EReal) (bs bn bs' bn' : S128.Idx → EReal)
    (r : Fin 5000 → Fin 100000)
    (hx : ∀ p e, x (ix2 p e) = X (ix2 (r p) e)) (hns : ∀ p e, ns (ix2 p e) = NS (ix2 (r p) e))
    (hw : ∀ p, w (ix2 p (0 : Fin 1)) = W (ix2 (r p) (0 : Fin 1)))
    (hWs : Ws' = Ws) (hbs : bs' = bs) (hWn : Wn' = Wn) (hbn : bn' = bn) (p : Fin 5000) (q : Fin 128) :
    layer (N := 5000) (A := 64) (B := 128) x (scaled (N := 5000) (A := 64) ns w) Ws' bs' Wn' bn' (ix2 p q)
      = layer (N := 100000) (A := 64) (B := 128) X (scaled (N := 100000) (A := 64) NS W) Ws bs Wn bn (ix2 (r p) q) := by
  subst hWs hbs hWn hbn
  rw [layer_apply, layer_apply]
  simp only [scaled_apply, hx, hns, hw]

/-! ## The blocks the body loads are the arrays' rows -/

/-- The features' block at point `t`: rows `t * 5000 …` of the features. -/
theorem features_block (c : Dev nD) (t : Fin cfg0.N) (p : Fin 5000) (e : Fin 64) :
    iblk0 (F := Ideal) V c 0 t (ix2 p e) = V c main_arg0 (ix2 (row t p) e) := by
  show V c main_arg0 (((cfg0.win 0).blk t).view.emb (ix2 p e)) = V c main_arg0 (ix2 (row t p) e)
  refine congrArg (V c main_arg0) ?_
  obtain ⟨h0, h1, -⟩ := block_index t
  funext a; apply Fin.ext
  match a with
  | ⟨0, _⟩ => show win0_0.index t (0 : Fin 2) * 5000 + 1 * p.val = t.val * 5000 + p.val; omega
  | ⟨1, _⟩ => show win0_0.index t (1 : Fin 2) * 64 + 1 * e.val = e.val; omega

/-- The neighbours' sum's block at point `t`: rows `t * 5000 …` of the neighbours' sum. -/
theorem sum_block (c : Dev nD) (t : Fin cfg0.N) (p : Fin 5000) (e : Fin 64) :
    iblk0 (F := Ideal) V c 1 t (ix2 p e) = V c main_v22 (ix2 (row t p) e) := by
  show V c main_v22 (((cfg0.win 1).blk t).view.emb (ix2 p e)) = V c main_v22 (ix2 (row t p) e)
  refine congrArg (V c main_v22) ?_
  obtain ⟨-, -, h0, h1, -⟩ := block_index t
  funext a; apply Fin.ext
  match a with
  | ⟨0, _⟩ => show win0_1.index t (0 : Fin 2) * 5000 + 1 * p.val = t.val * 5000 + p.val; omega
  | ⟨1, _⟩ => show win0_1.index t (1 : Fin 2) * 64 + 1 * e.val = e.val; omega

/-- The weight column's block at point `t`: rows `t * 5000 …` of the weight column. -/
theorem weight_block (c : Dev nD) (t : Fin cfg0.N) (p : Fin 5000) :
    iblk0 (F := Ideal) V c 2 t (ix2 p (0 : Fin 1)) = V c main_v12 (ix2 (row t p) (0 : Fin 1)) := by
  show V c main_v12 (((cfg0.win 2).blk t).view.emb (ix2 p (0 : Fin 1))) = V c main_v12 (ix2 (row t p) (0 : Fin 1))
  refine congrArg (V c main_v12) ?_
  obtain ⟨-, -, -, -, h0, h1, -⟩ := block_index t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- The parameter windows load their arrays whole, at every point. -/
theorem self_weight_block (c : Dev nD) (t : Fin cfg0.N) :
    (iblk0 (F := Ideal) V c 3 t : S128x64.Idx → EReal) = V c main_arg2 := by
  funext j
  show V c main_arg2 (((cfg0.win 3).blk t).view.emb j) = V c main_arg2 j
  refine congrArg (V c main_arg2) ?_
  obtain ⟨-, -, -, -, -, -, h0, h1, -⟩ := block_index t
  funext a; apply Fin.ext
  match a with
  | ⟨0, _⟩ => show win0_3.index t (0 : Fin 2) * 128 + 1 * (j 0).val = (j 0).val; omega
  | ⟨1, _⟩ => show win0_3.index t (1 : Fin 2) * 64 + 1 * (j 1).val = (j 1).val; omega

theorem self_bias_block (c : Dev nD) (t : Fin cfg0.N) :
    (iblk0 (F := Ideal) V c 4 t : S128.Idx → EReal) = V c main_arg3 := by
  funext j
  show V c main_arg3 (((cfg0.win 4).blk t).view.emb j) = V c main_arg3 j
  refine congrArg (V c main_arg3) ?_
  obtain ⟨-, -, -, -, -, -, -, -, h0, -⟩ := block_index t
  funext a; apply Fin.ext
  match a with
  | ⟨0, _⟩ => show win0_4.index t (0 : Fin 1) * 128 + 1 * (j 0).val = (j 0).val; omega

theorem neighbour_weight_block (c : Dev nD) (t : Fin cfg0.N) :
    (iblk0 (F := Ideal) V c 5 t : S128x64.Idx → EReal) = V c main_arg4 := by
  funext j
  show V c main_arg4 (((cfg0.win 5).blk t).view.emb j) = V c main_arg4 j
  refine congrArg (V c main_arg4) ?_
  obtain ⟨-, -, -, -, -, -, -, -, -, h0, h1, -⟩ := block_index t
  funext a; apply Fin.ext
  match a with
  | ⟨0, _⟩ => show win0_5.index t (0 : Fin 2) * 128 + 1 * (j 0).val = (j 0).val; omega
  | ⟨1, _⟩ => show win0_5.index t (1 : Fin 2) * 64 + 1 * (j 1).val = (j 1).val; omega

theorem neighbour_bias_block (c : Dev nD) (t : Fin cfg0.N) :
    (iblk0 (F := Ideal) V c 6 t : S128.Idx → EReal) = V c main_arg5 := by
  funext j
  show V c main_arg5 (((cfg0.win 6).blk t).view.emb j) = V c main_arg5 j
  refine congrArg (V c main_arg5) ?_
  obtain ⟨-, -, -, -, -, -, -, -, -, -, -, h0, -⟩ := block_index t
  funext a; apply Fin.ext
  match a with
  | ⟨0, _⟩ => show win0_6.index t (0 : Fin 1) * 128 + 1 * (j 0).val = (j 0).val; omega

/-- Entry `(p, q)` of the output's block at point `t` is entry `(t * 5000 + p, q)` of the output array. -/
theorem out_emb (t : Fin cfg0.N) (p : Fin 5000) (q : Fin 128) :
    (((cfg0.win 7).blk t).view.emb (ix2 p q) : S100000x128.Idx) = ix2 (row t p) q := by
  obtain ⟨-, -, -, -, -, -, -, -, -, -, -, -, h0, h1⟩ := block_index t
  funext a; apply Fin.ext
  match a with
  | ⟨0, _⟩ => show win0_7.index t (0 : Fin 2) * 5000 + 1 * p.val = t.val * 5000 + p.val; omega
  | ⟨1, _⟩ => show win0_7.index t (1 : Fin 2) * 128 + 1 * q.val = q.val; omega

/-! ## What a point writes back -/

/-- Point `t` writes back block `t` of the layer of the whole arrays. -/
theorem flushed_eq (c : Dev nD) (t : Fin cfg0.N) :
    (dat0 (F := Ideal) V c).flushed 7 t = ((cfg0.win 7).blk t).view.read (Elt Ideal)
      (layer (N := 100000) (A := 64) (B := 128) (V c main_arg0)
          (scaled (N := 100000) (A := 64) (V c main_v22) (V c main_v12))
          (V c main_arg2) (V c main_arg3) (V c main_arg4) (V c main_arg5)) := by
  show (cfg0.win 7).cut (grid0.coords t) ((dat0 (F := Ideal) V c).after 7 t) = _
  rw [after0_7]
  unfold out0_7
  rw [View.canon_unit_zero zero2]
  simp only [View.ld_unit_zero (S := S5000x64) zero2, View.ld_unit_zero (S := S5000x1) zero2,
    View.ld_unit_zero (S := S128x64) zero2, View.ld_unit_zero (S := S128) zero1]
  rw [Pay.pay0_eq]
  refine funext fun (y : S5000x128.Idx) => ?_
  obtain ⟨p, q, rfl⟩ : ∃ (p : Fin 5000) (q : Fin 128), y = ix2 p q := ⟨y 0, y 1, eq_ix2 y⟩
  show layer (N := 5000) (A := 64) (B := 128) (iblk0 (F := Ideal) V c 0 t)
        (scaled (N := 5000) (A := 64) (iblk0 (F := Ideal) V c 1 t) (iblk0 (F := Ideal) V c 2 t))
        (iblk0 (F := Ideal) V c 3 t) (iblk0 (F := Ideal) V c 4 t) (iblk0 (F := Ideal) V c 5 t) (iblk0 (F := Ideal) V c 6 t) (ix2 p q)
      = layer (N := 100000) (A := 64) (B := 128) (V c main_arg0)
          (scaled (N := 100000) (A := 64) (V c main_v22) (V c main_v12))
          (V c main_arg2) (V c main_arg3) (V c main_arg4) (V c main_arg5) (((cfg0.win 7).blk t).view.emb (ix2 p q))
  rw [out_emb t p q]
  exact layer_rows (V c main_arg0) (V c main_v22) (V c main_v12) _ _ _ _ _ _ _ _ _ _ _ (row t)
    (features_block V c t) (sum_block V c t) (weight_block V c t)
    (self_weight_block V c t) (self_bias_block V c t) (neighbour_weight_block V c t) (neighbour_bias_block V c t) p q

/-! ## The twenty blocks tile the output -/

/-- An index of the output array is in point `t`'s block iff each coordinate is in the block's range on its axis. -/
theorem mem_block (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v23).slice (win0_7.rect t)).set ↔ _
  rw [View.set_slice_whole, Rect.mem_set_unit]
  exact Iff.rfl

/-- Row `r` of the output is in the block of point `r / 5000`, and every point writes its block back. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hk : (i 0).val / 5000 < 20 := by omega
  let t : Fin cfg0.N := ⟨(i 0).val / 5000, hk⟩
  have ht : t.val = (i 0).val / 5000 := rfl
  obtain ⟨-, -, -, -, -, -, -, -, -, -, -, -, h0, h1⟩ := block_index t
  refine ⟨t, flush0_7 t, ?_⟩
  rw [mem_block]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

end FirstLaunch

/-- The first launch's output array: the first layer of the arrays the launch finds. -/
theorem final0 (c : Dev nD) :
    (dat0 (F := Ideal) V c).arrAt 7 cfg0.N
      = layer (N := 100000) (A := 64) (B := 128) (V c main_arg0)
          (scaled (N := 100000) (A := 64) (V c main_v22) (V c main_v12))
          (V c main_arg2) (V c main_arg3) (V c main_arg4) (V c main_arg5) :=
  (dat0 (F := Ideal) V c).arrAt_eq_of_cover 7 _ (fun t _ => FirstLaunch.flushed_eq V c t) FirstLaunch.cover

end Cert.Sage.Blocks

end
-- ==== Proof.Blocks1.lean ====
/-
  From blocks to the array, second launch: what the second kernel launch leaves in its output array.

  The launch walks twenty blocks of 5000 rows.  At a block the body stores the projection of the layer of the blocks it loaded; the row
  blocks of the features, of the neighbours' sum and of the weight column are the same rows of the input arrays, the
  parameters are loaded whole, and a layer's entry `(p, q)` depends on row `p` of the features and of the weighted
  sum only.  So the stored block is that block of the projected layer of the WHOLE arrays, and the twenty blocks tile the output.
-/
import proofs.«124478_j56075093017243_2_alg».proof.Proof.Gen.KernelIdeal.Frame
import proofs.«124478_j56075093017243_2_alg».proof.Proof.PayloadLayer
import Idealize.ShloMosaic.Lib.Pipeline.Value

set_option maxRecDepth 16384

noncomputable section

namespace Cert.Sage.Blocks

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

namespace SecondLaunch

/-! ## Rows of a block are rows of the array -/

/-- A projected layer's entry `(p, q)` reads row `p` of the features, of the neighbours' sum and of the weight column, and
    the parameters whole: two sets of arrays that agree on those rows (row `p` of the one being row `r` of the other) and have
    the same parameters give the same entry. -/
theorem proj_layer_of_rows {N M A B C : ℕ}
    (x ns : (⟨2, ![N, A]⟩ : Shape).Idx → EReal) (w : (⟨2, ![N, 1]⟩ : Shape).Idx → EReal)
    (X NS : (⟨2, ![M, A]⟩ : Shape).Idx → EReal) (W : (⟨2, ![M, 1]⟩ : Shape).Idx → EReal)
    (Ws Ws' : (⟨2, ![B, A]⟩ : Shape).Idx → EReal) (bs bs' : (⟨1, ![B]⟩ : Shape).Idx → EReal)
    (Wn Wn' : (⟨2, ![B, A]⟩ : Shape).Idx → EReal) (bn bn' : (⟨1, ![B]⟩ : Shape).Idx → EReal)
    (Wo Wo' : (⟨2, ![C, B]⟩ : Shape).Idx → EReal) (bo bo' : (⟨1, ![C]⟩ : Shape).Idx → EReal)
    (p : Fin N) (r : Fin M) (q : Fin C)
    (hx : ∀ e : Fin A, x (ix2 p e) = X (ix2 r e)) (hns : ∀ e : Fin A, ns (ix2 p e) = NS (ix2 r e))
    (hw : w (ix2 p (0 : Fin 1)) = W (ix2 r (0 : Fin 1)))
    (hWs : Ws = Ws') (hbs : bs = bs') (hWn : Wn = Wn') (hbn : bn = bn') (hWo : Wo = Wo') (hbo : bo = bo') :
    proj (layer x (scaled ns w) Ws bs Wn bn) Wo bo (ix2 p q)
      = proj (layer X (scaled NS W) Ws' bs' Wn' bn') Wo' bo' (ix2 r q) := by
  subst hWs hbs hWn hbn hWo hbo
  have hl : ∀ e : Fin B, layer x (scaled ns w) Ws bs Wn bn (ix2 p e) = layer X (scaled NS W) Ws bs Wn bn (ix2 r e) := by
    intro e
    rw [layer_apply, layer_apply]
    simp only [scaled_apply, hx, hns, hw]
  rw [proj_apply, proj_apply]
  simp only [hl]

/-! ## The index maps -/

/-- The zero offsets of a whole-buffer access, as constant functions. -/
theorem zero2 : (![0, 0] : Fin 2 → Nat) = fun _ => 0 := funext fun a => by fin_cases a <;> rfl
theorem zero1 : (![0] : Fin 1 → Nat) = fun _ => 0 := funext fun a => by fin_cases a; rfl

/-- The block index of every window at every one of the twenty points: the three row windows and the output are at block `t` of
    the rows and block 0 of the columns, the six parameter windows at block 0 on every axis. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

/-! ## The loaded blocks, read in the arrays -/

/-- Row `p` of the features' block at point `t` is row `5000 t + p` of the features. -/
theorem features_row (c : Dev nD) (t : Fin cfg1.N) (p : Fin 5000) (e : Fin 128) (h : t.val * 5000 + p.val < 100000) :
    (iblk1 V c 0 t : Vec Ideal S5000x128 .f32) (ix2 p e)
      = (V c main_v23 : S100000x128.Idx → EReal) (ix2 ⟨t.val * 5000 + p.val, h⟩ e) := by
  obtain ⟨⟨h0, h1⟩, -⟩ := block_index t
  unfold iblk1
  rw [View.read_apply]
  show V c main_v23 _ = V c main_v23 _
  congr 1
  funext a
  apply Fin.ext
  match a with
  | ⟨0, _⟩ => show win1_0.index t (0 : Fin 2) * 5000 + 1 * p.val = t.val * 5000 + p.val; rw [h0]; omega
  | ⟨1, _⟩ => show win1_0.index t (1 : Fin 2) * 128 + 1 * e.val = e.val; rw [h1]; omega

/-- Row `p` of the neighbours' sum's block at point `t` is row `5000 t + p` of the neighbours' sum. -/
theorem neighbours_row (c : Dev nD) (t : Fin cfg1.N) (p : Fin 5000) (e : Fin 128) (h : t.val * 5000 + p.val < 100000) :
    (iblk1 V c 1 t : Vec Ideal S5000x128 .f32) (ix2 p e)
      = (V c main_v33 : S100000x128.Idx → EReal) (ix2 ⟨t.val * 5000 + p.val, h⟩ e) := by
  obtain ⟨-, ⟨h0, h1⟩, -⟩ := block_index t
  unfold iblk1
  rw [View.read_apply]
  show V c main_v33 _ = V c main_v33 _
  congr 1
  funext a
  apply Fin.ext
  match a with
  | ⟨0, _⟩ => show win1_1.index t (0 : Fin 2) * 5000 + 1 * p.val = t.val * 5000 + p.val; rw [h0]; omega
  | ⟨1, _⟩ => show win1_1.index t (1 : Fin 2) * 128 + 1 * e.val = e.val; rw [h1]; omega

/-- Entry `p` of the weight column's block at point `t` is entry `5000 t + p` of the weight column. -/
theorem weight_row (c : Dev nD) (t : Fin cfg1.N) (p : Fin 5000) (h : t.val * 5000 + p.val < 100000) :
    (iblk1 V c 2 t : Vec Ideal S5000x1 .f32) (ix2 p (0 : Fin 1))
      = (V c main_v12 : S100000x1.Idx → EReal) (ix2 ⟨t.val * 5000 + p.val, h⟩ (0 : Fin 1)) := by
  obtain ⟨-, -, ⟨h0, h1⟩, -⟩ := block_index t
  unfold iblk1
  rw [View.read_apply]
  show V c main_v12 _ = V c main_v12 _
  congr 1
  funext a
  apply Fin.ext
  match a with
  | ⟨0, _⟩ => show win1_2.index t (0 : Fin 2) * 5000 + 1 * p.val = t.val * 5000 + p.val; rw [h0]; omega
  | ⟨1, _⟩ => show win1_2.index t (1 : Fin 2) * 1 + 1 * 0 = 0; rw [h1]

/-- The parameters are loaded whole at every point: the block is the array. -/
theorem self_weights_block (c : Dev nD) (t : Fin cfg1.N) :
    (iblk1 V c 3 t : Vec Ideal S128x128 .f32) = (V c main_arg6 : S128x128.Idx → EReal) := by
  obtain ⟨-, -, -, ⟨h0, h1⟩, -⟩ := block_index t
  funext y
  unfold iblk1
  rw [View.read_apply]
  show V c main_arg6 _ = V c main_arg6 _
  congr 1
  funext a
  apply Fin.ext
  match a with
  | ⟨0, _⟩ => show win1_3.index t (0 : Fin 2) * 128 + 1 * (y 0).val = (y 0).val; rw [h0]; omega
  | ⟨1, _⟩ => show win1_3.index t (1 : Fin 2) * 128 + 1 * (y 1).val = (y 1).val; rw [h1]; omega

theorem self_bias_block (c : Dev nD) (t : Fin cfg1.N) :
    (iblk1 V c 4 t : Vec Ideal S128 .f32) = (V c main_arg7 : S128.Idx → EReal) := by
  obtain ⟨-, -, -, -, h0, -⟩ := block_index t
  funext y
  unfold iblk1
  rw [View.read_apply]
  show V c main_arg7 _ = V c main_arg7 _
  congr 1
  funext a
  apply Fin.ext
  match a with
  | ⟨0, _⟩ => show win1_4.index t (0 : Fin 1) * 128 + 1 * (y 0).val = (y 0).val; rw [h0]; omega

theorem neighbour_weights_block (c : Dev nD) (t : Fin cfg1.N) :
    (iblk1 V c 5 t : Vec Ideal S128x128 .f32) = (V c main_arg8 : S128x128.Idx → EReal) := by
  obtain ⟨-, -, -, -, -, ⟨h0, h1⟩, -⟩ := block_index t
  funext y
  unfold iblk1
  rw [View.read_apply]
  show V c main_arg8 _ = V c main_arg8 _
  congr 1
  funext a
  apply Fin.ext
  match a with
  | ⟨0, _⟩ => show win1_5.index t (0 : Fin 2) * 128 + 1 * (y 0).val = (y 0).val; rw [h0]; omega
  | ⟨1, _⟩ => show win1_5.index t (1 : Fin 2) * 128 + 1 * (y 1).val = (y 1).val; rw [h1]; omega

theorem neighbour_bias_block (c : Dev nD) (t : Fin cfg1.N) :
    (iblk1 V c 6 t : Vec Ideal S128 .f32) = (V c main_arg9 : S128.Idx → EReal) := by
  obtain ⟨-, -, -, -, -, -, h0, -⟩ := block_index t
  funext y
  unfold iblk1
  rw [View.read_apply]
  show V c main_arg9 _ = V c main_arg9 _
  congr 1
  funext a
  apply Fin.ext
  match a with
  | ⟨0, _⟩ => show win1_6.index t (0 : Fin 1) * 128 + 1 * (y 0).val = (y 0).val; rw [h0]; omega

theorem out_weights_block (c : Dev nD) (t : Fin cfg1.N) :
    (iblk1 V c 7 t : Vec Ideal S64x128 .f32) = (V c main_arg10 : S64x128.Idx → EReal) := by
  obtain ⟨-, -, -, -, -, -, -, ⟨h0, h1⟩, -⟩ := block_index t
  funext y
  unfold iblk1
  rw [View.read_apply]
  show V c main_arg10 _ = V c main_arg10 _
  congr 1
  funext a
  apply Fin.ext
  match a with
  | ⟨0, _⟩ => show win1_7.index t (0 : Fin 2) * 64 + 1 * (y 0).val = (y 0).val; rw [h0]; omega
  | ⟨1, _⟩ => show win1_7.index t (1 : Fin 2) * 128 + 1 * (y 1).val = (y 1).val; rw [h1]; omega

theorem out_bias_block (c : Dev nD) (t : Fin cfg1.N) :
    (iblk1 V c 8 t : Vec Ideal S64 .f32) = (V c main_arg11 : S64.Idx → EReal) := by
  obtain ⟨-, -, -, -, -, -, -, -, h0, -⟩ := block_index t
  funext y
  unfold iblk1
  rw [View.read_apply]
  show V c main_arg11 _ = V c main_arg11 _
  congr 1
  funext a
  apply Fin.ext
  match a with
  | ⟨0, _⟩ => show win1_8.index t (0 : Fin 1) * 64 + 1 * (y 0).val = (y 0).val; rw [h0]; omega

/-! ## What a point writes back -/

/-- The projected layer of the WHOLE arrays as the launch finds them. -/
abbrev whole (c : Dev nD) : S100000x64.Idx → EReal :=
  proj (N := 100000) (A := 128) (B := 64)
    (layer (N := 100000) (A := 128) (B := 128) (V c main_v23)
      (scaled (N := 100000) (A := 128) (V c main_v33) (V c main_v12))
      (V c main_arg6) (V c main_arg7) (V c main_arg8) (V c main_arg9))
    (V c main_arg10) (V c main_arg11)

/-- What the body leaves in the output's staging buffer: its one store covers the buffer, its loads read the staged blocks whole,
    and its payload is the projected layer of those blocks. -/
theorem stored_eq (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32) (x7 : Vec Ideal S64x128 .f32)
    (x8 : Vec Ideal S64 .f32) :
    out1_9 (F := Ideal) x0 x1 x2 x3 x4 x5 x6 x7 x8
      = proj (N := 5000) (A := 128) (B := 64)
          (layer (N := 5000) (A := 128) (B := 128) x0 (scaled (N := 5000) (A := 128) x1 x2) x3 x4 x5 x6) x7 x8 := by
  unfold out1_9
  rw [View.canon_unit_zero zero2]
  simp only [View.ld_unit_zero (S := S5000x128) zero2, View.ld_unit_zero (S := S5000x1) zero2,
    View.ld_unit_zero (S := S128x128) zero2, View.ld_unit_zero (S := S128) zero1,
    View.ld_unit_zero (S := S64x128) zero2, View.ld_unit_zero (S := S64) zero1]
  rw [Pay.pay1_eq]

/-- An entry of the block stored at point `t` is the entry of the whole arrays' projected layer 5000 t rows further down. -/
theorem stored_entry (c : Dev nD) (t : Fin cfg1.N) (j : S5000x64.Idx) (i : S100000x64.Idx)
    (h0 : (i 0).val = t.val * 5000 + (j 0).val) (h1 : (i 1).val = (j 1).val) :
    out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) j
      = whole V c i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  have hr : r.val = t.val * 5000 + p.val := h0
  have hlt : t.val * 5000 + p.val < 100000 := hr ▸ r.isLt
  obtain rfl : r = ⟨t.val * 5000 + p.val, hlt⟩ := Fin.ext hr
  obtain rfl : s = q := Fin.ext h1
  refine (congrFun (stored_eq (iblk1 V c 0 t) (iblk1 V c 1 t) (iblk1 V c 2 t) (iblk1 V c 3 t) (iblk1 V c 4 t) (iblk1 V c 5 t)
    (iblk1 V c 6 t) (iblk1 V c 7 t) (iblk1 V c 8 t)) (ix2 p s)).trans ?_
  exact proj_layer_of_rows (N := 5000) (M := 100000) (A := 128) (B := 128) (C := 64)
    (iblk1 V c 0 t) (iblk1 V c 1 t) (iblk1 V c 2 t) (V c main_v23) (V c main_v33) (V c main_v12)
    (iblk1 V c 3 t) (V c main_arg6) (iblk1 V c 4 t) (V c main_arg7) (iblk1 V c 5 t) (V c main_arg8)
    (iblk1 V c 6 t) (V c main_arg9) (iblk1 V c 7 t) (V c main_arg10) (iblk1 V c 8 t) (V c main_arg11)
    p ⟨t.val * 5000 + p.val, hlt⟩ s
    (fun e => features_row V c t p e hlt) (fun e => neighbours_row V c t p e hlt) (weight_row V c t p hlt)
    (self_weights_block V c t) (self_bias_block V c t) (neighbour_weights_block V c t) (neighbour_bias_block V c t)
    (out_weights_block V c t) (out_bias_block V c t)

/-- Point `t` writes back block `t` of the whole arrays' projected layer. -/
theorem flushed_eq (c : Dev nD) (t : Fin cfg1.N) :
    (dat1 V c).flushed 9 t = ((cfg1.win 9).blk t).view.read (Elt Ideal) (whole V c) := by
  show (cfg1.win 9).cut (grid1.coords t) ((dat1 V c).after 9 t) = _
  rw [after1_9]
  obtain ⟨-, -, -, -, -, -, -, -, -, ⟨h0, h1⟩⟩ := block_index t
  funext y
  refine stored_entry V c t ((cfg1.win 9).xinj (grid1.coords t) y) (((cfg1.win 9).blk t).view.emb y) ?_ ?_
  · show win1_9.index t (0 : Fin 2) * 5000 + 1 * (y 0).val = t.val * 5000 + (y 0).val
    rw [h0]; omega
  · show win1_9.index t (1 : Fin 2) * 64 + 1 * (y 1).val = (y 1).val
    rw [h1]; omega

/-! ## The twenty blocks tile the output -/

/-- Membership in point `t`'s block of the output array, axis by axis: each coordinate lies in the block's range. -/
theorem mem_block (t : Fin cfg1.N) (i : S100000x64.Idx) :
    i ∈ ((cfg1.win 9).blk t).view.set
      ↔ ∀ a : Fin 2, win1_9.index t a * S5000x64.size a ≤ (i a).val
          ∧ (i a).val < win1_9.index t a * S5000x64.size a + S5000x64.size a := by
  show i ∈ ((View.whole main_v34).slice (win1_9.rect t)).set ↔ _
  rw [View.set_slice_whole, Rect.mem_set_unit]
  exact Iff.rfl

/-- Row `r` of the output lies in the block of point `r / 5000` (20 × 5000 = 100000), which is written back. -/
theorem covered (i : S100000x64.Idx) :
    ∃ t : Fin cfg1.N, (cfg1.win 9).flush t = true ∧ i ∈ ((cfg1.win 9).blk t).view.set := by
  have hN : cfg1.N = 20 := N_1
  have hi0 : (i 0).val < 100000 := (i 0).isLt
  have hi1 : (i 1).val < 64 := (i 1).isLt
  have hlt : (i 0).val / 5000 < cfg1.N := by rw [hN]; omega
  obtain ⟨-, -, -, -, -, -, -, -, -, ⟨h0, h1⟩⟩ := block_index ⟨(i 0).val / 5000, hlt⟩
  have h0' : win1_9.index ⟨(i 0).val / 5000, hlt⟩ (0 : Fin 2) = (i 0).val / 5000 := h0
  refine ⟨⟨(i 0).val / 5000, hlt⟩, flush1_9 _, ?_⟩
  rw [mem_block]
  intro a
  match a with
  | ⟨0, _⟩ =>
    show win1_9.index ⟨(i 0).val / 5000, hlt⟩ (0 : Fin 2) * 5000 ≤ (i 0).val
      ∧ (i 0).val < win1_9.index ⟨(i 0).val / 5000, hlt⟩ (0 : Fin 2) * 5000 + 5000
    rw [h0']; omega
  | ⟨1, _⟩ =>
    show win1_9.index ⟨(i 0).val / 5000, hlt⟩ (1 : Fin 2) * 64 ≤ (i 1).val
      ∧ (i 1).val < win1_9.index ⟨(i 0).val / 5000, hlt⟩ (1 : Fin 2) * 64 + 64
    rw [h1]; omega

end SecondLaunch

/-- The second launch's output array: the projection of the second layer of the arrays the launch finds. -/
theorem final1 (c : Dev nD) :
    (dat1 (F := Ideal) V c).arrAt 9 cfg1.N
      = proj (N := 100000) (A := 128) (B := 64)
          (layer (N := 100000) (A := 128) (B := 128) (V c main_v23)
            (scaled (N := 100000) (A := 128) (V c main_v33) (V c main_v12))
            (V c main_arg6) (V c main_arg7) (V c main_arg8) (V c main_arg9))
          (V c main_arg10) (V c main_arg11) := by
  exact (dat1 V c).arrAt_eq_of_cover 9 (SecondLaunch.whole V c) (fun t _ => SecondLaunch.flushed_eq V c t)
    SecondLaunch.covered

end Cert.Sage.Blocks

end
-- ==== Proof.LibScatterRows.lean ====
/-
  The accumulating scatter of rows, read at an element.

  An operand `[N, D]` receives `E` update rows `[E, D]`; row `e` is added onto the operand row whose number is the
  entry `(e, 0)` of an index column `[E, 1]`, read as a signed integer (a row whose index is negative or at least `N`
  is dropped). Over the extended reals the additions commute, so the element `(v, c)` of the result is the operand's
  element plus the sum, over the rows `e` whose index is `v`, of the update's element `(e, c)`. The same holds for
  a vector `[E]` of updates added onto a vector `[N]`.
-/
import Idealize.ShloMosaic.PureOps.Ideal
import Idealize.ShloMosaic.Lib.ValueIdx

noncomputable section

namespace Cert.ScatterRows

open Idealize.ShloMosaic Idealize.ShloMosaic.ValueIdx

/-! ## Rows `[E, D]` onto `[N, D]` -/

/-- The dimension numbers of a scatter of update rows `[E, D]` onto an operand `[N, D]` by an index column `[E, 1]`:
    the updates' axis 1 is the window axis, the operand's axis 0 is the scattered one, the index vector lies on the
    indices' axis 1. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The window of update element `(e, c)` starts, on the operand's row axis, at the index `(e, 0)` read signed. -/
theorem rows_start_zero (j : (⟨2, ![E, D]⟩ : Shape).Idx) (idx : IVec ⟨2, ![E, 1]⟩ w) :
    (rowsDims N D E wf).start j idx 0 = (idx (ix2 (j 0) (0 : Fin 1))).toInt := by
  unfold ScatterDims.start
  rw [dif_pos (show (0 : Fin 2) ∈ (rowsDims N D E wf).scatterDimsToOperandDims from List.mem_singleton.mpr rfl)]
  have hsi : (rowsDims N D E wf).siIdx j ⟨List.idxOf (0 : Fin 2) (rowsDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at `0` on the operand's column axis, which the index column does not name. -/
theorem rows_start_one (j : (⟨2, ![E, D]⟩ : Shape).Idx) (idx : IVec ⟨2, ![E, 1]⟩ w) :
    (rowsDims N D E wf).start j idx 1 = 0 := by
  unfold ScatterDims.start
  rw [dif_neg (show ¬ (1 : Fin 2) ∈ (rowsDims N D E wf).scatterDimsToOperandDims from
    (show (1 : Fin 2) ∉ ([0] : List (Fin 2)) by decide))]

/-- The window coordinate of update element `(e, c)` is `0` on the row axis … -/
theorem rows_window_zero (j : (⟨2, ![E, D]⟩ : Shape).Idx) : (rowsDims N D E wf).window j 0 = 0 := by
  unfold ScatterDims.window
  rw [dif_neg (show ¬ (0 : Fin 2) ∈ (rowsDims N D E wf).sKept from
    (show (0 : Fin 2) ∉ (List.finRange 2).filter (fun a => a ∉ ([0] : List (Fin 2))) by decide))]

/-- … and `c` on the column axis. -/
theorem rows_window_one (j : (⟨2, ![E, D]⟩ : Shape).Idx) : (rowsDims N D E wf).window j 1 = (j 1).val := by
  unfold ScatterDims.window
  rw [dif_pos (show (1 : Fin 2) ∈ (rowsDims N D E wf).sKept from
    (show (1 : Fin 2) ∈ (List.finRange 2).filter (fun a => a ∉ ([0] : List (Fin 2))) by decide))]
  rfl

/-- WHERE AN UPDATE ELEMENT LANDS: element `(e, c)` of the updates lands on element `(v, c')` of the operand exactly
    when the index `(e, 0)`, read signed, is `v` and `c = c'`. -/
theorem rows_resultIdx?_eq_some_iff (j : (⟨2, ![E, D]⟩ : Shape).Idx) (idx : IVec ⟨2, ![E, 1]⟩ w)
    (i : (⟨2, ![N, D]⟩ : Shape).Idx) :
    (rowsDims N D E wf).resultIdx? j idx = some i ↔
      (idx (ix2 (j 0) (0 : Fin 1))).toInt = ((i 0).val : Int) ∧ (j 1).val = (i 1).val := by
  unfold ScatterDims.resultIdx?
  have h0 := rows_start_zero wf j idx
  have h1 := rows_start_one wf j idx
  have w0 := rows_window_zero wf j
  have w1 := rows_window_one wf j
  have hi0 : (i 0).val < N := idx2_lt0 i
  have hi1 : (i 1).val < D := idx2_lt1 i
  split
  · rename_i h
    rw [Option.some.injEq]
    constructor
    · intro hE
      have e0 := congrArg (fun k => (k 0).val) hE
      have e1 := congrArg (fun k => (k 1).val) hE
      simp only [h0, h1, w0, w1] at e0 e1
      have g0 := (h 0).1
      rw [h0, w0] at g0
      constructor <;> omega
    · rintro ⟨e0, e1⟩
      funext a; refine Fin.ext ?_
      match a with
      | ⟨0, _⟩ => show ((rowsDims N D E wf).start j idx 0 + ((rowsDims N D E wf).window j 0 : Int)).toNat = (i 0).val; rw [h0, w0]; omega
      | ⟨1, _⟩ => show ((rowsDims N D E wf).start j idx 1 + ((rowsDims N D E wf).window j 1 : Int)).toNat = (i 1).val; rw [h1, w1]; omega
  · rename_i h
    constructor
    · intro hE; exact absurd hE (by simp)
    · rintro ⟨e0, e1⟩
      exfalso; apply h
      intro a
      match a with
      | ⟨0, _⟩ =>
        show 0 ≤ (rowsDims N D E wf).start j idx 0 + ((rowsDims N D E wf).window j 0 : Int) ∧ (rowsDims N D E wf).start j idx 0 + ((rowsDims N D E wf).window j 0 : Int) < (N : Int)
        rw [h0, w0]; omega
      | ⟨1, _⟩ =>
        show 0 ≤ (rowsDims N D E wf).start j idx 1 + ((rowsDims N D E wf).window j 1 : Int) ∧ (rowsDims N D E wf).start j idx 1 + ((rowsDims N D E wf).window j 1 : Int) < (D : Int)
        rw [h1, w1]; omega

/-- THE SCATTER OF ROWS READ AT `(v, c)`: the operand there plus the sum, over the rows `e` whose index `(e, 0)` read
    signed is `v`, of the update at `(e, c)`. -/
theorem hostScatterAdd_rows_apply (x : (⟨2, ![N, D]⟩ : Shape).Idx → EReal) (idx : IVec ⟨2, ![E, 1]⟩ w)
    (upd : (⟨2, ![E, D]⟩ : Shape).Idx → EReal) (v : Fin N) (c : Fin D) :
    Ideal.hostScatterAdd (rowsDims N D E wf) x idx upd (ix2 v c)
      = x (ix2 v c) + ∑ e : Fin E, if (idx (ix2 e (0 : Fin 1))).toInt = (v.val : Int) then upd (ix2 e c) else 0 := by
  unfold Ideal.hostScatterAdd
  congr 1
  rw [Finset.sum_filter, sum_idx2]
  refine Finset.sum_congr rfl fun e _ => ?_
  have hiff : ∀ c' : Fin D, ((rowsDims N D E wf).resultIdx? (ix2 e c') idx = some (ix2 v c)) ↔
      ((idx (ix2 e (0 : Fin 1))).toInt = (v.val : Int) ∧ c' = c) := by
    intro c'
    rw [rows_resultIdx?_eq_some_iff]
    exact and_congr Iff.rfl Fin.val_inj
  simp only [hiff]
  by_cases hv : (idx (ix2 e (0 : Fin 1))).toInt = (v.val : Int)
  · simp only [hv, true_and, if_true]
    rw [Finset.sum_ite_eq' Finset.univ c (fun c' => upd (ix2 e c'))]
    simp
  · simp only [hv, false_and, if_false]
    exact Finset.sum_const_zero

/-- The same for the program's operation `Host.scatterAdd`, which at the ideal values is that exact sum. -/
theorem scatterAdd_rows_apply {φ : FTy} (x : (⟨2, ![N, D]⟩ : Shape).Idx → EReal) (idx : IVec ⟨2, ![E, 1]⟩ w)
    (upd : (⟨2, ![E, D]⟩ : Shape).Idx → EReal) (v : Fin N) (c : Fin D) :
    Host.scatterAdd (F := Ideal) (φ := φ) (rowsDims N D E wf) x idx upd (ix2 v c)
      = x (ix2 v c) + ∑ e : Fin E, if (idx (ix2 e (0 : Fin 1))).toInt = (v.val : Int) then upd (ix2 e c) else 0 :=
  hostScatterAdd_rows_apply wf x idx upd v c

end Rows

/-! ## A vector `[E]` onto `[N]` -/

/-- The dimension numbers of a scatter of update entries `[E]` onto an operand `[N]` by an index column `[E, 1]`: no
    window axis, the operand's only axis is the scattered one, the index vector lies on the indices' axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- The window of update entry `e` starts at the index `(e, 0)` read signed. -/
theorem vec_start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Its window coordinate is `0`: the operand's axis is an inserted one. -/
theorem vec_window_zero (j : (⟨1, ![E]⟩ : Shape).Idx) : (vecDims N E wf).window j 0 = 0 := by
  unfold ScatterDims.window
  rw [dif_neg (show ¬ (0 : Fin 1) ∈ (vecDims N E wf).sKept from
    (show (0 : Fin 1) ∉ (List.finRange 1).filter (fun a => a ∉ ([0] : List (Fin 1))) by decide))]

/-- WHERE AN UPDATE ENTRY LANDS: entry `e` lands on entry `v` of the operand exactly when the index `(e, 0)`, read
    signed, is `v`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) (0 : Fin 1))).toInt = ((i 0).val : Int) := by
  unfold ScatterDims.resultIdx?
  have h0 := vec_start_zero wf j idx
  have w0 := vec_window_zero wf j
  have hi0 : (i 0).val < N := (i 0).isLt
  split
  · rename_i h
    rw [Option.some.injEq]
    constructor
    · intro hE
      have e0 := congrArg (fun k => (k 0).val) hE
      simp only [h0, w0] at e0
      have g0 := (h 0).1
      rw [h0, w0] at g0
      omega
    · intro e0
      funext a; refine Fin.ext ?_
      match a with
      | ⟨0, _⟩ => show ((vecDims N E wf).start j idx 0 + ((vecDims N E wf).window j 0 : Int)).toNat = (i 0).val; rw [h0, w0]; omega
  · rename_i h
    constructor
    · intro hE; exact absurd hE (by simp)
    · intro e0
      exfalso; apply h
      intro a
      match a with
      | ⟨0, _⟩ =>
        show 0 ≤ (vecDims N E wf).start j idx 0 + ((vecDims N E wf).window j 0 : Int) ∧ (vecDims N E wf).start j idx 0 + ((vecDims N E wf).window j 0 : Int) < (N : Int)
        rw [h0, w0]; omega

/-- THE SCATTER OF A VECTOR READ AT `v`: the operand there plus the sum, over the entries `e` whose index `(e, 0)`
    read signed is `v`, of the update at `e`. -/
theorem hostScatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v)
      = x (ix1 v) + ∑ e : Fin E, if (idx (ix2 e (0 : Fin 1))).toInt = (v.val : Int) then upd (ix1 e) else 0 := by
  unfold Ideal.hostScatterAdd
  congr 1
  rw [Finset.sum_filter]
  have hsum : ∀ f : (⟨1, ![E]⟩ : Shape).Idx → EReal, ∑ j, f j = ∑ e : Fin E, f (ix1 e) := by
    intro f
    refine (Fintype.sum_equiv ⟨fun e : Fin E => (ix1 e : (⟨1, ![E]⟩ : Shape).Idx), fun j => j 0, fun _ => rfl,
      fun j => (eq_ix1 j).symm⟩ _ _ (fun _ => rfl)).symm
  rw [hsum]
  refine Finset.sum_congr rfl fun e _ => ?_
  have hiff : ((vecDims N E wf).resultIdx? (ix1 e) idx = some (ix1 v)) ↔
      ((idx (ix2 e (0 : Fin 1))).toInt = (v.val : Int)) := by
    exact vec_resultIdx?_eq_some_iff wf (ix1 e) idx (ix1 v)
  simp only [hiff]

/-- The same for the program's operation `Host.scatterAdd`, which at the ideal values is that exact sum. -/
theorem scatterAdd_vec_apply {φ : FTy} (x : (⟨1, ![N]⟩ : Shape).Idx → EReal) (idx : IVec ⟨2, ![E, 1]⟩ w)
    (upd : (⟨1, ![E]⟩ : Shape).Idx → EReal) (v : Fin N) :
    Host.scatterAdd (F := Ideal) (φ := φ) (vecDims N E wf) x idx upd (ix1 v)
      = x (ix1 v) + ∑ e : Fin E, if (idx (ix2 e (0 : Fin 1))).toInt = (v.val : Int) then upd (ix1 e) else 0 :=
  hostScatterAdd_vec_apply wf x idx upd v

end Vec

end Cert.ScatterRows

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.MeanEq.lean ====
/-
  Dividing by the degree is multiplying by its reciprocal.

  A node's in-degree is a finite count of edges, so floored at one it is a real number that is at least one.  Over the
  extended reals division by a nonzero REAL is the product with its reciprocal, at the infinities too; hence the
  neighbours' sum times the column of reciprocals is the neighbours' sum divided by the degree, entry by entry,
  whatever the sum holds.
-/
import proofs.«124478_j56075093017243_2_alg».proof.Proof.HostSide
import proofs.«124478_j56075093017243_2_alg».proof.Proof.LibScatterRows
import proofs.«124478_j56075093017243_2_alg».proof.Proof.LibVectorColumn
import proofs.«124478_j56075093017243_2_alg».proof.Proof.LibBroadcastInDim
import proofs.«124478_j56075093017243_2_alg».proof.Proof.LibBiasRow
import Idealize.ShloMosaic.Lib.Pipeline.Value
import Idealize.ShloMosaic.Lib.ValueIdx
import Idealize.ShloMosaic.PureOps.Ideal.Laws
import Idealize.ShloMosaic.Lib.IdealHost

noncomputable section

namespace Cert.Sage.Mean

open Idealize.ShloMosaic Idealize.ShloMosaic.ValueIdx Cert.ReferenceIdeal Cert.ReferenceIdeal.Gen Cert.Sage

/-- A finite sum of zeros and ones over the extended reals is a natural number. -/
theorem sum_indicator_coe {ι : Type} (s : Finset ι) (c : ι → Prop) [DecidablePred c] :
    ∃ k : ℕ, (∑ e ∈ s, if c e then (1 : EReal) else 0) = ((k : ℝ) : EReal) := by
  classical
  induction s using Finset.induction_on with
  | empty => exact ⟨0, by simp⟩
  | insert a s ha ih =>
    obtain ⟨k, hk⟩ := ih
    rw [Finset.sum_insert ha, hk]
    by_cases h : c a
    · refine ⟨k + 1, ?_⟩
      rw [if_pos h, ← EReal.coe_one, ← EReal.coe_add]
      congr 1
      push_cast
      ring
    · exact ⟨k, by rw [if_neg h, zero_add]⟩

/-- The floored degree of every node is a real number, and it is not zero. -/
theorem deg_real (ei : IVec S2x1000000 32) (v : Fin 100000) :
    ∃ r : ℝ, r ≠ 0 ∧ Host.deg ei (ix1 v) = (r : EReal) := by
  obtain ⟨k, hk⟩ := sum_indicator_coe (Finset.univ : Finset (Fin 1000000))
    (fun e => (Host.dstCol ei (ix2 e (0 : Fin 1))).toInt = (v.val : Int))
  refine ⟨max (k : ℝ) 1, ?_, ?_⟩
  · have h1 : (1 : ℝ) ≤ max (k : ℝ) 1 := le_max_right _ _
    intro h0
    rw [h0] at h1
    exact absurd h1 (by norm_num)
  · unfold Host.deg
    rw [maximumf_apply]
    have hone : ∀ (t : Shape) (h : S_.BroadcastsInDim t ![]) (j : t.Idx),
        broadcastInDim t ![] h (constant (F := Ideal) S_ .f32 0x3F800000#32) j = 1 := by
      intro t h j
      rw [BiasRead.scalar_apply _ h j (fun a => a.elim0), constant_apply, Ideal.ofBits_one_f32]
    have hzero : ∀ (t : Shape) (h : S_.BroadcastsInDim t ![]) (j : t.Idx),
        broadcastInDim t ![] h (constant (F := Ideal) S_ .f32 0x00000000#32) j = 0 := by
      intro t h j
      rw [BiasRead.scalar_apply _ h j (fun a => a.elim0), constant_apply, Ideal.ofBits_zero_f32]
    have hs := Cert.ScatterRows.scatterAdd_vec_apply (N := 100000) (E := 1000000) (φ := .f32)
      scatter_S100000_S1000000x1_S1000000_n_0_0_1_wf
      (broadcastInDim S100000 ![] bcast_S_S100000 (constant (F := Ideal) S_ .f32 0x00000000#32)) (Host.dstCol ei)
      (broadcastInDim S1000000 ![] bcast_S_S1000000 (constant (F := Ideal) S_ .f32 0x3F800000#32)) v
    simp only [hone, hzero] at hs
    rw [zero_add, hk] at hs
    refine (congrArg₂ max hs (hone _ _ _)).trans ?_
    rw [← EReal.coe_one]
    exact (EReal.coe_strictMono.monotone.map_max (a := (k : ℝ)) (b := 1)).symm

/-- The degree column at row `p` holds the degree of node `p`. -/
theorem degCol_apply (ei : IVec S2x1000000 32) (p : Fin 100000) :
    Host.degCol ei (ix2 p (0 : Fin 1)) = Host.deg ei (ix1 p) := by
  unfold Host.degCol
  exact Cert.LibVectorColumn.broadcastInDim_a_a1_apply _ bcast_S100000_S100000x1_0 p 0

/-- The reciprocal column at row `p` holds one divided by the degree of node `p`. -/
theorem invCol_apply (ei : IVec S2x1000000 32) (p : Fin 100000) :
    Host.invCol ei (ix2 p (0 : Fin 1)) = Ideal.div 1 (Host.deg ei (ix1 p)) := by
  unfold Host.invCol
  refine (Cert.LibVectorColumn.broadcastInDim_a_a1_apply _ bcast_S100000_S100000x1_0 p 0).trans ?_
  refine (hostDivf_apply _ _ _).trans ?_
  rw [BiasRead.scalar_apply _ bcast_S_S100000 (ix1 p) (fun a => a.elim0), constant_apply, Ideal.ofBits_one_f32]

/-- Multiplying by the reciprocal of a nonzero real is dividing by it, whatever the extended real multiplied. -/
theorem mul_div_one_eq_div (x d : EReal) (hd : ∃ r : ℝ, r ≠ 0 ∧ d = (r : EReal)) :
    x * Ideal.div 1 d = Ideal.div x d := by
  obtain ⟨r, hr, rfl⟩ := hd
  rw [Ideal.div_coe hr, Ideal.div_coe hr, one_mul]

theorem mean64_eq (ns : FVec Ideal S100000x64 .f32) (ei : IVec S2x1000000 32) :
    scaled (N := 100000) (A := 64) ns (Host.invCol ei) = Host.mean64 ns ei := by
  funext j
  obtain ⟨p, e, rfl⟩ : ∃ (p : Fin 100000) (e : Fin 64), j = ix2 p e := ⟨j 0, j 1, eq_ix2 j⟩
  refine (scaled_apply _ _ p e).trans ?_
  rw [invCol_apply]
  unfold Host.mean64
  refine Eq.trans ?_ (hostDivf_apply _ _ _).symm
  rw [BroadcastRead.column_apply _ bcast_S100000x1_S100000x64_0_1 p e, degCol_apply]
  exact mul_div_one_eq_div _ _ (deg_real ei p)

theorem mean128_eq (ns : FVec Ideal S100000x128 .f32) (ei : IVec S2x1000000 32) :
    scaled (N := 100000) (A := 128) ns (Host.invCol ei) = Host.mean128 ns ei := by
  funext j
  obtain ⟨p, e, rfl⟩ : ∃ (p : Fin 100000) (e : Fin 128), j = ix2 p e := ⟨j 0, j 1, eq_ix2 j⟩
  refine (scaled_apply _ _ p e).trans ?_
  rw [invCol_apply]
  unfold Host.mean128
  refine Eq.trans ?_ (hostDivf_apply _ _ _).symm
  rw [BroadcastRead.column_apply _ bcast_S100000x1_S100000x128_0_1 p e, degCol_apply]
  exact mul_div_one_eq_div _ _ (deg_real ei p)

end Cert.Sage.Mean

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«124478_j56075093017243_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.RefRead.lean ====
/-
  The reference's dense layers, read entry by entry at the exact extended reals.

  A host matrix product of an `[N, A]` array against the TRANSPOSE of a `[B, A]` weight matrix is, at `(p, q)`, the dot
  product of row `p` with the weight matrix's row `q`; a bias vector sent to a row and then down the rows reads the
  vector at the column; the maximum with the zero array is entrywise.  So the reference's layers are the layers of
  `Spec.lean`.
-/
import proofs.«124478_j56075093017243_2_alg».proof.Proof.HostSide
import proofs.«124478_j56075093017243_2_alg».proof.Proof.LibDotNN
import proofs.«124478_j56075093017243_2_alg».proof.Proof.LibBroadcastInDim
import proofs.«124478_j56075093017243_2_alg».proof.Proof.LibBiasRow
import Idealize.ShloMosaic.Lib.Pipeline.Value
import Idealize.ShloMosaic.Lib.ValueIdx
import Idealize.ShloMosaic.PureOps.Ideal.Laws

noncomputable section

namespace Cert.Sage.Ref

open Idealize.ShloMosaic Idealize.ShloMosaic.ValueIdx Cert.ReferenceIdeal Cert.ReferenceIdeal.Gen Cert.Sage

/-- The transpose of a `[B, A]` matrix read at `(e, q)` is the matrix at `(q, e)`. -/
theorem transpose_swap_apply {α : Type} {A B : ℕ} (W : (⟨2, ![B, A]⟩ : Shape).Idx → α)
    (h : (⟨2, ![B, A]⟩ : Shape).Transposes [1, 0] ⟨2, ![A, B]⟩) (e : Fin A) (q : Fin B) :
    transpose ⟨2, ![A, B]⟩ [1, 0] W h (ix2 e q) = W (ix2 q e) := by
  refine transpose_apply [1, 0] W h (ix2 e q) (ix2 q e) fun b => ?_
  match b with
  | ⟨0, _⟩ => rfl
  | ⟨1, _⟩ => rfl

/-- The host product of an `[N, A]` array against the transpose of a `[B, A]` matrix: entry `(p, q)` is the dot
    product of row `p` of the array with row `q` of the matrix. -/
theorem dot_transpose_apply {N A B : ℕ}
    (wf : DotDims.WF (⟨2, ![N, A]⟩ : Shape) (⟨2, ![A, B]⟩ : Shape) (⟨2, ![N, B]⟩ : Shape) [1] [0] [0] [1] [] [])
    (h : (⟨2, ![B, A]⟩ : Shape).Transposes [1, 0] ⟨2, ![A, B]⟩)
    (x : FVec Ideal (⟨2, ![N, A]⟩ : Shape) .f32) (W : FVec Ideal (⟨2, ![B, A]⟩ : Shape) .f32) (p : Fin N) (q : Fin B) :
    Host.dotGeneral (F := Ideal) (Cert.LibMatmulNN.dims wf) none x (transpose ⟨2, ![A, B]⟩ [1, 0] W h) (ix2 p q)
      = ∑ e : Fin A, x (ix2 p e) * W (ix2 q e) := by
  refine (Cert.LibDotNN.dotGeneral_apply wf none .single x (transpose ⟨2, ![A, B]⟩ [1, 0] W h) p q).trans ?_
  refine Finset.sum_congr rfl fun e _ => ?_
  rw [transpose_swap_apply W h e q]

/-- A bias vector `[B]` sent to the row `[1, B]` and then down the rows of `[N, B]` reads, at `(p, q)`, the vector
    at `q`. -/
theorem bias_apply {α : Type} {N B : ℕ} (b : (⟨1, ![B]⟩ : Shape).Idx → α)
    (h₁ : (⟨1, ![B]⟩ : Shape).BroadcastsInDim ⟨2, ![1, B]⟩ ![1])
    (h₂ : (⟨2, ![1, B]⟩ : Shape).BroadcastsInDim ⟨2, ![N, B]⟩ ![0, 1]) (p : Fin N) (q : Fin B) :
    broadcastInDim ⟨2, ![N, B]⟩ ![0, 1] h₂ (broadcastInDim ⟨2, ![1, B]⟩ ![1] h₁ b) (ix2 p q) = b (ix1 q) :=
  (BroadcastRead.row_apply _ h₂ p q).trans (BroadcastRead.vector_row_apply b h₁ 0 q)

/-- The zero scalar spread over any shape reads zero at every index. -/
theorem zero_apply {t : Shape} (h : (⟨0, ![]⟩ : Shape).BroadcastsInDim t ![]) (j : t.Idx) :
    broadcastInDim t ![] h (constant (F := Ideal) (⟨0, ![]⟩ : Shape) .f32 0x00000000#32) j
      = Ideal.ofBits .f32 0x00000000#32 :=
  (BiasRead.scalar_apply _ h j ix0).trans (constant_apply _ _)

/-- A host layer at `(p, q)`: the two products against transposed weights, the two biases, the maximum with zero —
    the layer of the specification, entry by entry. -/
theorem hostLayer_apply {N A B : ℕ}
    (wf : DotDims.WF (⟨2, ![N, A]⟩ : Shape) (⟨2, ![A, B]⟩ : Shape) (⟨2, ![N, B]⟩ : Shape) [1] [0] [0] [1] [] [])
    (hT : (⟨2, ![B, A]⟩ : Shape).Transposes [1, 0] ⟨2, ![A, B]⟩)
    (h₁ : (⟨1, ![B]⟩ : Shape).BroadcastsInDim ⟨2, ![1, B]⟩ ![1])
    (h₂ : (⟨2, ![1, B]⟩ : Shape).BroadcastsInDim ⟨2, ![N, B]⟩ ![0, 1])
    (h₀ : (⟨0, ![]⟩ : Shape).BroadcastsInDim ⟨2, ![N, B]⟩ ![])
    (x nm : FVec Ideal (⟨2, ![N, A]⟩ : Shape) .f32) (Ws : FVec Ideal (⟨2, ![B, A]⟩ : Shape) .f32)
    (bs : FVec Ideal (⟨1, ![B]⟩ : Shape) .f32) (Wn : FVec Ideal (⟨2, ![B, A]⟩ : Shape) .f32)
    (bn : FVec Ideal (⟨1, ![B]⟩ : Shape) .f32) (p : Fin N) (q : Fin B) :
    maximumf (addf (addf (addf
        (Host.dotGeneral (F := Ideal) (Cert.LibMatmulNN.dims wf) none x (transpose ⟨2, ![A, B]⟩ [1, 0] Ws hT))
        (broadcastInDim ⟨2, ![N, B]⟩ ![0, 1] h₂ (broadcastInDim ⟨2, ![1, B]⟩ ![1] h₁ bs)))
        (Host.dotGeneral (F := Ideal) (Cert.LibMatmulNN.dims wf) none nm (transpose ⟨2, ![A, B]⟩ [1, 0] Wn hT)))
        (broadcastInDim ⟨2, ![N, B]⟩ ![0, 1] h₂ (broadcastInDim ⟨2, ![1, B]⟩ ![1] h₁ bn)))
      (broadcastInDim ⟨2, ![N, B]⟩ ![] h₀ (constant (F := Ideal) (⟨0, ![]⟩ : Shape) .f32 0x00000000#32)) (ix2 p q)
      = layer x nm Ws bs Wn bn (ix2 p q) := by
  rw [layer_apply, maximumf_apply, addf_apply, addf_apply, addf_apply, zero_apply h₀,
    bias_apply bs h₁ h₂ p q, bias_apply bn h₁ h₂ p q,
    dot_transpose_apply wf hT x Ws p q, dot_transpose_apply wf hT nm Wn p q]

/-- A host projection at `(p, q)`: one product against a transposed weight plus a bias. -/
theorem hostProj_apply {N A B : ℕ}
    (wf : DotDims.WF (⟨2, ![N, A]⟩ : Shape) (⟨2, ![A, B]⟩ : Shape) (⟨2, ![N, B]⟩ : Shape) [1] [0] [0] [1] [] [])
    (hT : (⟨2, ![B, A]⟩ : Shape).Transposes [1, 0] ⟨2, ![A, B]⟩)
    (h₁ : (⟨1, ![B]⟩ : Shape).BroadcastsInDim ⟨2, ![1, B]⟩ ![1])
    (h₂ : (⟨2, ![1, B]⟩ : Shape).BroadcastsInDim ⟨2, ![N, B]⟩ ![0, 1])
    (h : FVec Ideal (⟨2, ![N, A]⟩ : Shape) .f32) (Wo : FVec Ideal (⟨2, ![B, A]⟩ : Shape) .f32)
    (bo : FVec Ideal (⟨1, ![B]⟩ : Shape) .f32) (p : Fin N) (q : Fin B) :
    addf (Host.dotGeneral (F := Ideal) (Cert.LibMatmulNN.dims wf) none h (transpose ⟨2, ![A, B]⟩ [1, 0] Wo hT))
        (broadcastInDim ⟨2, ![N, B]⟩ ![0, 1] h₂ (broadcastInDim ⟨2, ![1, B]⟩ ![1] h₁ bo)) (ix2 p q)
      = proj h Wo bo (ix2 p q) := by
  rw [proj_apply, addf_apply, bias_apply bo h₁ h₂ p q, dot_transpose_apply wf hT h Wo p q]

theorem refLayer1_eq (x nm : FVec Ideal S100000x64 .f32) (Ws : FVec Ideal S128x64 .f32) (bs : FVec Ideal S128 .f32)
    (Wn : FVec Ideal S128x64 .f32) (bn : FVec Ideal S128 .f32) :
    Host.refLayer1 x nm Ws bs Wn bn = layer (N := 100000) (A := 64) (B := 128) x nm Ws bs Wn bn := by
  funext j
  obtain ⟨p, q, rfl⟩ : ∃ (p : Fin 100000) (q : Fin 128), j = ix2 p q := ⟨j 0, j 1, eq_ix2 j⟩
  exact hostLayer_apply dot_S100000x64_S64x128_S100000x128_1_0_0_1_n_n_wf transposes_S128x64_S64x128_1_0
    bcast_S128_S1x128_1 bcast_S1x128_S100000x128_0_1 bcast_S_S100000x128 x nm Ws bs Wn bn p q

theorem refLayer2_eq (h nm : FVec Ideal S100000x128 .f32) (Ws : FVec Ideal S128x128 .f32) (bs : FVec Ideal S128 .f32)
    (Wn : FVec Ideal S128x128 .f32) (bn : FVec Ideal S128 .f32) :
    Host.refLayer2 h nm Ws bs Wn bn = layer (N := 100000) (A := 128) (B := 128) h nm Ws bs Wn bn := by
  funext j
  obtain ⟨p, q, rfl⟩ : ∃ (p : Fin 100000) (q : Fin 128), j = ix2 p q := ⟨j 0, j 1, eq_ix2 j⟩
  exact hostLayer_apply dot_S100000x128_S128x128_S100000x128_1_0_0_1_n_n_wf transposes_S128x128_S128x128_1_0
    bcast_S128_S1x128_1 bcast_S1x128_S100000x128_0_1 bcast_S_S100000x128 h nm Ws bs Wn bn p q

theorem refProj_eq (h : FVec Ideal S100000x128 .f32) (Wo : FVec Ideal S64x128 .f32) (bo : FVec Ideal S64 .f32) :
    Host.refProj h Wo bo = proj (N := 100000) (A := 128) (B := 64) h Wo bo := by
  funext j
  obtain ⟨p, q, rfl⟩ : ∃ (p : Fin 100000) (q : Fin 64), j = ix2 p q := ⟨j 0, j 1, eq_ix2 j⟩
  exact hostProj_apply dot_S100000x128_S128x64_S100000x64_1_0_0_1_n_n_wf transposes_S64x128_S128x64_1_0
    bcast_S64_S1x64_1 bcast_S1x64_S100000x64_0_1 h Wo bo p q

end Cert.Sage.Ref

end
-- ==== Proof.Bridge.lean ====
/-
  The idealized kernel's result array is the network of `HostSide.lean` applied to the twelve arguments.

  The second launch leaves the projection of the second layer of the arrays it is entered with; those are the first
  launch's output, its neighbours' sum, the reciprocal degrees and arguments; the first launch's output is the first
  layer of the features, their neighbours' sum, the reciprocal degrees and arguments.  A neighbours' sum times the
  column of reciprocal degrees is that sum divided by the degree — the one place where the kernel and the reference
  differ —, and the layers of blocks are the reference's layers of host operations, entry by entry.
-/
import proofs.«124478_j56075093017243_2_alg».proof.Proof.KernelHost
import proofs.«124478_j56075093017243_2_alg».proof.Proof.Blocks0
import proofs.«124478_j56075093017243_2_alg».proof.Proof.Blocks1
import proofs.«124478_j56075093017243_2_alg».proof.Proof.MeanEq
import proofs.«124478_j56075093017243_2_alg».proof.Proof.RefRead

set_option maxRecDepth 16384

noncomputable section

namespace Cert.Sage

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first launch's output is the reference's first layer of the arguments. -/
theorem first_layer :
    V3 m ρ c main_v23
      = Host.refLayer1 (m ((c : Thread nD τ).loc main_arg0)) (Host.mean64 (Host.nsum64 (m ((c : Thread nD τ).loc main_arg0)) (m ((c : Thread nD τ).loc main_arg1))) (m ((c : Thread nD τ).loc main_arg1)))
          (m ((c : Thread nD τ).loc main_arg2)) (m ((c : Thread nD τ).loc main_arg3)) (m ((c : Thread nD τ).loc main_arg4)) (m ((c : Thread nD τ).loc main_arg5)) := by
  rw [Kern.V3_v23, Blocks.final0 (V1 m ρ) c, Kern.V1_v22, Kern.V1_v12, Kern.V1_arg0, Kern.V1_arg2, Kern.V1_arg3,
    Kern.V1_arg4, Kern.V1_arg5, Mean.mean64_eq, ← Ref.refLayer1_eq]

/-- The result array after the run is the network of the arguments. -/
theorem kernel_out :
    (dat1 (F := Ideal) (V3 m ρ) c).arrAt 9 cfg1.N
      = Host.net (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11)) := by
  rw [Blocks.final1 (V3 m ρ) c, Kern.V3_v33, Kern.V3_v12, Kern.V3_arg6, Kern.V3_arg7, Kern.V3_arg8, Kern.V3_arg9,
    Kern.V3_arg10, Kern.V3_arg11, first_layer, Mean.mean128_eq, ← Ref.refLayer2_eq, ← Ref.refProj_eq]
  rfl

end Cert.Sage

end
-- ==== Proof.RefNet.lean ====
/-
  The reference's result is the network of `HostSide.lean` applied to its twelve arguments: the run's composed term,
  with the graph side and the dense layers folded into their names.
-/
import proofs.«124478_j56075093017243_2_alg».proof.Proof.Gen.ReferenceIdeal.Run
import proofs.«124478_j56075093017243_2_alg».proof.Proof.HostSide

set_option maxRecDepth 16384

noncomputable section

namespace Cert.Sage.Ref

open Idealize.ShloMosaic Idealize.ShloMosaic.TcCoe Idealize.SL.Sem
open Cert.ReferenceIdeal Cert.ReferenceIdeal.Gen Cert.Sage

theorem res_eq (m : (ℓ : Loc nD τ sig) → Buf (Elt Ideal) ℓ) (c : Dev nD) :
    Cert.ReferenceIdeal.Value.res_main_v70 (F := Ideal) m c
      = Host.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v70
  rfl

end Cert.Sage.Ref

end
-- ==== Proof.lean ====
/-
  A two-layer mean-aggregating graph network: a Pallas implementation against its jnp reference, equal over the
  extended reals.

  Both programs aggregate each node's in-neighbours by a gather of the source rows and an accumulating scatter onto the
  destination rows, twice, and both apply the same dense layers (`relu (x · Wsᵀ + bs + mean · Wnᵀ + bn)`, then an
  output projection).  The kernel runs the dense layers as two launches over twenty blocks of 5000 nodes and, instead of
  dividing the neighbours' sum by the in-degree (floored at one), multiplies it by the reciprocal computed once on the
  host.  The in-degree is a finite count, hence a nonzero real, and division of ANY extended real by a nonzero real is
  the product with its reciprocal: that is the one law the equality rests on.  Matrix products against transposed
  weights, changes of float format and the tiling make no difference at the exact reals.

  The three frames are the generated ones (the reference's is its generated run with the result dropped); the ideal
  pass rewrote nothing, so `preserves` is trivial; the value claim pairs the kernel's run with its result named
  (`KernelRun.lean`, `Bridge.lean`) with the reference's generated run (`RefNet.lean`).
-/
import proofs.«124478_j56075093017243_2_alg».proof.Defs
import proofs.«124478_j56075093017243_2_alg».proof.Proof.Gen.Kernel
import proofs.«124478_j56075093017243_2_alg».proof.Proof.Gen.Kernel.Skeleton
import proofs.«124478_j56075093017243_2_alg».proof.Proof.Gen.Kernel.Launch
import proofs.«124478_j56075093017243_2_alg».proof.Proof.Gen.Kernel.Points
import proofs.«124478_j56075093017243_2_alg».proof.Proof.Gen.Kernel.Frame
import proofs.«124478_j56075093017243_2_alg».proof.Proof.Gen.KernelIdeal
import proofs.«124478_j56075093017243_2_alg».proof.Proof.Gen.KernelIdeal.Skeleton
import proofs.«124478_j56075093017243_2_alg».proof.Proof.Gen.KernelIdeal.Launch
import proofs.«124478_j56075093017243_2_alg».proof.Proof.Gen.KernelIdeal.Points
import proofs.«124478_j56075093017243_2_alg».proof.Proof.Gen.KernelIdeal.Frame
import proofs.«124478_j56075093017243_2_alg».proof.Proof.Gen.ReferenceIdeal
import proofs.«124478_j56075093017243_2_alg».proof.Proof.Gen.Pre_finite_inputs
import proofs.«124478_j56075093017243_2_alg».proof.Proof.Gen.ReferenceIdeal.Run
import proofs.«124478_j56075093017243_2_alg».proof.Proof.KernelRun
import proofs.«124478_j56075093017243_2_alg».proof.Proof.Bridge
import proofs.«124478_j56075093017243_2_alg».proof.Proof.RefNet
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the network of the arguments in their result buffers; the arguments agree. -/
theorem algebraic : Cert.algebraic_KernelIdeal_ReferenceIdeal := by
  intro m ρ m' ρ' _ hagree
  refine ⟨fun c => Cert.Sage.Host.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Sage.kernel_out m ρ c), (h c).2⟩) (Cert.KernelIdeal.Run.run_out m ρ)
  · refine (θ_run Cert.ReferenceIdeal.defs _ _).mono (fun r h c => ⟨(h c).1.trans ?_, (h c).2⟩)
      (Cert.ReferenceIdeal.Value.run (F := Ideal) m' ρ')
    rw [Cert.Sage.Ref.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
